-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg10
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S2x2048x1024 .f32) (main_arg1 : FVec F S2x2048x1024 .f32) (main_arg2 : FVec F S2x2048x1024 .f32) (main_arg3 : IVec S2x2048x2048 32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_arg10 main_arg11 main_v13 main_v16
-- ==== Kernel.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩

abbrev nBuf : Space → Nat
  | .hbm => 38
  | .vmem => 36
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x2048, .i32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S2x2048x1024, .f32⟩
  | .hbm, ⟨18, _⟩ => ⟨S1x1024, .f32⟩
  | .hbm, ⟨19, _⟩ => ⟨S4096x1024, .f32⟩
  | .hbm, ⟨20, _⟩ => ⟨S2x2048x1024, .f32⟩
  | .hbm, ⟨21, _⟩ => ⟨S1x1024, .f32⟩
  | .hbm, ⟨22, _⟩ => ⟨S4096x1024, .f32⟩
  | .hbm, ⟨23, _⟩ => ⟨S2x2048x1024, .f32⟩
  | .hbm, ⟨24, _⟩ => ⟨S2x2048x16x64, .f32⟩
  | .hbm, ⟨25, _⟩ => ⟨S2x16x2048x64, .f32⟩
  | .hbm, ⟨26, _⟩ => ⟨S2x2048x16x64, .f32⟩
  | .hbm, ⟨27, _⟩ => ⟨S2x16x2048x64, .f32⟩
  | .hbm, ⟨28, _⟩ => ⟨S2x2048x16x64, .f32⟩
  | .hbm, ⟨29, _⟩ => ⟨S2x16x2048x64, .f32⟩
  | .hbm, ⟨30, _⟩ => ⟨S2x16x2048x64, .f32⟩
  | .hbm, ⟨31, _⟩ => ⟨S2x16x2048x2048, .f32⟩
  | .hbm, ⟨32, _⟩ => ⟨S2x2048x16x64, .f32⟩
  | .hbm, ⟨33, _⟩ => ⟨S2x2048x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1x512x64, .f32⟩
  | .local _ .vmem, ⟨19, _⟩ => ⟨S1x1x512x64, .f32⟩
  | .local _ .vmem, ⟨20, _⟩ => ⟨S1x1x2048x64, .f32⟩
  | .local _ .vmem, ⟨21, _⟩ => ⟨S1x1x2048x64, .f32⟩
  | .local _ .vmem, ⟨22, _⟩ => ⟨S1x1x2048x64, .f32⟩
  | .local _ .vmem, ⟨23, _⟩ => ⟨S1x1x2048x64, .f32⟩
  | .local _ .vmem, ⟨24, _⟩ => ⟨S1x512x2048, .i32⟩
  | .local _ .vmem, ⟨25, _⟩ => ⟨S1x512x2048, .i32⟩
  | .local _ .vmem, ⟨26, _⟩ => ⟨S1x1x512x64, .f32⟩
  | .local _ .vmem, ⟨27, _⟩ => ⟨S1x1x512x64, .f32⟩
  | .local _ .vmem, ⟨28, _⟩ => ⟨S1x1x512x2048, .f32⟩
  | .local _ .vmem, ⟨29, _⟩ => ⟨S1x1x512x2048, .f32⟩
  | .local _ .vmem, ⟨30, _⟩ => ⟨S512x1024, .f32⟩
  | .local _ .vmem, ⟨31, _⟩ => ⟨S512x1024, .f32⟩
  | .local _ .vmem, ⟨32, _⟩ => ⟨S1024x1024, .f32⟩
  | .local _ .vmem, ⟨33, _⟩ => ⟨S1x1024, .f32⟩
  | .local _ .vmem, ⟨34, _⟩ => ⟨S512x1024, .f32⟩
  | .local _ .vmem, ⟨35, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 4, 16], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage3_0 : Fin 2 → Memref sig .tc .vmem S1x1x512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x512x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1x1x512x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x1x512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S512x1024_S1024x1024_S512x1024_1_1_0_0_n_n_wf : DotDims.WF S512x1024 S1024x1024 S512x1024 [1] [1] [0] [0] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x512x64.size a ≤ S2x16x2048x64.size a
  hwx3_0 : ∀ i : grid3.Coords, EltTy.bits .f32 = 32 ∨ (Rect.block (s := S2x16x2048x64) S1x1x512x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S2x16x2048x64.size a
  hwx3_1 : ∀ i : grid3.Coords, EltTy.bits .f32 = 32 ∨ (Rect.block (s := S2x16x2048x64) S1x1x2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S2x16x2048x64.size a
  hwx3_2 : ∀ i : grid3.Coords, EltTy.bits .f32 = 32 ∨ (Rect.block (s := S2x16x2048x64) S1x1x2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x2048.size a ≤ S2x2048x2048.size a
  hwx3_3 : ∀ i : grid3.Coords, EltTy.bits .i32 = 32 ∨ (Rect.block (s := S2x2048x2048) S1x512x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x512x64.size a ≤ S2x16x2048x64.size a
  hwx3_4 : ∀ i : grid3.Coords, EltTy.bits .f32 = 32 ∨ (Rect.block (s := S2x16x2048x64) S1x1x512x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x512x2048.size a ≤ S2x16x2048x2048.size a
  hwx3_5 : ∀ i : grid3.Coords, EltTy.bits .f32 = 32 ∨ (Rect.block (s := S2x16x2048x2048) S1x1x512x2048.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .f32 = 32 ∨ (Rect.block (s := S4096x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S1x1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x512x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18_0) S1x1x512x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v18_1) S1x1x512x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v21) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v22) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x2048, .i32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2x2048x1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S2x2048x16x64, .f32⟩
  | .hbm, ⟨17, _⟩ => ⟨S2x16x2048x64, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x16x64, .f32⟩
  | .hbm, ⟨23, _⟩ => ⟨S2x16x2048x64, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x16x64, .f32⟩
  | .hbm, ⟨29, _⟩ => ⟨S2x16x2048x64, .f32⟩
  | .hbm, ⟨30, _⟩ => ⟨S2x16x2048x2048, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S2x1x2048x2048, .i32⟩
  | .hbm, ⟨35, _⟩ => ⟨S_, .i32⟩
  | .hbm, ⟨36, _⟩ => ⟨S2x1x2048x2048, .i32⟩
  | .hbm, ⟨37, _⟩ => ⟨S2x1x2048x2048, .i1⟩
  | .hbm, ⟨38, _⟩ => ⟨S_, .f32⟩
  | .hbm, ⟨39, _⟩ => ⟨S_, .f32⟩
  | .hbm, ⟨40, _⟩ => ⟨S2x16x2048x2048, .i1⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S_, .f32⟩
  | .hbm, ⟨46, _⟩ => ⟨S2x16x2048, .f32⟩
  | .hbm, ⟨47, _⟩ => ⟨S2x16x2048, .f32⟩
  | .hbm, ⟨48, _⟩ => ⟨S2x16x2048x1, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .f32⟩
  | .hbm, ⟨52, _⟩ => ⟨S_, .f32⟩
  | .hbm, ⟨53, _⟩ => ⟨S2x16x2048, .f32⟩
  | .hbm, ⟨54, _⟩ => ⟨S2x16x2048x1, .f32⟩
  | .hbm, ⟨55, _⟩ => ⟨S2x16x2048x2048, .f32⟩
  | .hbm, ⟨56, _⟩ => ⟨S2x16x2048x2048, .f32⟩
  | .hbm, ⟨57, _⟩ => ⟨S2x16x2048x64, .f32⟩
  | .hbm, ⟨58, _⟩ => ⟨S2x2048x16x64, .f32⟩
  | .hbm, ⟨59, _⟩ => ⟨S2x2048x1024, .f32⟩
  | .hbm, ⟨60, _⟩ => ⟨S2x2048x1024, .f32⟩
  | .hbm, ⟨61, _⟩ => ⟨S1x1x1024, .f32⟩
  | .hbm, ⟨62, _⟩ => ⟨S2x2048x1024, .f32⟩
  | .hbm, ⟨63, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run with its two result arrays named.

  @main is eleven segments: stretches of host operations and the five pipelined regions. The library's theorem for such a
  program gives, at the end of every weakly fair execution, each unscoped buffer at the fold of the segments' effects from
  the launch memory; the frame claim reads that fold at the argument arrays only. Read at the two result arrays as well it
  says what the results are: the last reshape of the output projection, and the attention weights the fourth region left.
-/
import proofs.«158408_j34445637714311_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two result arrays end at the fold of the
    segments' effects read at their buffers, and the argument arrays end as launched. -/
theorem run_values : θ_run defs (onTc (τ := τ) (main (F := F))) ⟨m, fun _ => 0, ρ⟩ (fun r => ∀ c : Dev nD,
      r.2.mem ((c.tc : Thread nD τ).loc main_v24) = W11 m ρ c (Proc.devRef .tc main_v24)
      ∧ r.2.mem ((c.tc : Thread nD τ).loc main_v18_1) = W11 m ρ c (Proc.devRef .tc main_v18_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v24 (by decide)),
       h c _ (mem_uc main_v18_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Gen

end
-- ==== Proof.Spec.lean ====
/-
  Multi-head attention on the extended reals, entry by entry.

  A linear layer on rows: for X of shape [n, 1024], W of shape [1024, 1024] (rows are output features) and a bias row
  B of shape [1, 1024], the entry (r, e) of X·Wᵀ + B is  Σ_d X(r, d)·W(e, d) + B(0, e).

  Scaled, masked attention for queries Q, keys K, values V of shape [2, 16, 2048, 64] and an integer mask M of shape
  [2, 2048, 2048]: the score of query q against key k in batch b and head h is  (Σ_d Q(b,h,q,d)·K(b,h,k,d)) · ⅛,
  replaced by the literal −10⁹ where M(b,q,k) = 0; a row's maximum is the fold of max from −∞ over its 2048 scores;
  the weight of key k is  exp(score − maximum) / Σ_k' exp(score' − maximum); and the attended value at (b,h,q,d) is
  Σ_k weight(b,h,q,k)·V(b,h,k,d).
-/
import Idealize.ShloMosaic.PureOps.Ideal
import Idealize.ShloMosaic.Lib.ValueIdx

noncomputable section

namespace Cert.Mha

open Idealize.ShloMosaic Idealize.ShloMosaic.ValueIdx

/-- The literal −10⁹ (as the f32 word both programs print). -/
def negBig : EReal := Ideal.ofBits .f32 0xCE6E6B28#32
/-- The literal 0.125. -/
def eighth : EReal := Ideal.ofBits .f32 0x3E000000#32
/-- The literal −∞. -/
def negInf : EReal := Ideal.ofBits .f32 0xFF800000#32

abbrev Rows := (⟨2, ![4096, 1024]⟩ : Shape).Idx → EReal
abbrev Weights := (⟨2, ![1024, 1024]⟩ : Shape).Idx → EReal
abbrev BiasRow := (⟨2, ![1, 1024]⟩ : Shape).Idx → EReal
abbrev Heads := (⟨4, ![2, 16, 2048, 64]⟩ : Shape).Idx → EReal
abbrev Mask := (⟨3, ![2, 2048, 2048]⟩ : Shape).Idx → BitVec 32
abbrev Probs := (⟨4, ![2, 16, 2048, 2048]⟩ : Shape).Idx → EReal

/-- Entry (r, e) of X·Wᵀ + B. -/
def linAt (X : Rows) (W : Weights) (B : BiasRow) (r : Fin 4096) (e : Fin 1024) : EReal :=
  (∑ d : Fin 1024, X (ix2 r d) * W (ix2 e d)) + B (ix2 (0 : Fin 1) e)

/-- X·Wᵀ + B as an array. -/
def lin (X : Rows) (W : Weights) (B : BiasRow) : Rows :=
  fun j => linAt X W B ⟨(j 0).val, (j 0).isLt⟩ ⟨(j 1).val, (j 1).isLt⟩

theorem lin_ix2 (X : Rows) (W : Weights) (B : BiasRow) (r : Fin 4096) (e : Fin 1024) :
    lin X W B (ix2 r e) = linAt X W B r e := rfl

/-- The masked, scaled score of query q against key k. -/
def score (Q K : Heads) (M : Mask) (b : Fin 2) (h : Fin 16) (q k : Fin 2048) : EReal :=
  Scalar.select (IntOp.cmpi .eq (M (ix3 b q k)) 0#32) negBig ((∑ d : Fin 64, Q (ix4 b h q d) * K (ix4 b h k d)) * eighth)

/-- A row's largest score. -/
def rowMax (Q K : Heads) (M : Mask) (b : Fin 2) (h : Fin 16) (q : Fin 2048) : EReal :=
  (Finset.univ : Finset (Fin 2048)).fold max negInf (fun k => score Q K M b h q k)

/-- exp(score − row maximum). -/
def expo (Q K : Heads) (M : Mask) (b : Fin 2) (h : Fin 16) (q k : Fin 2048) : EReal :=
  Ideal.exp (score Q K M b h q k - rowMax Q K M b h q)

/-- The row's normaliser. -/
def denom (Q K : Heads) (M : Mask) (b : Fin 2) (h : Fin 16) (q : Fin 2048) : EReal :=
  ∑ k : Fin 2048, expo Q K M b h q k

/-- The attention weight of key k for query q. -/
def prob (Q K : Heads) (M : Mask) (b : Fin 2) (h : Fin 16) (q k : Fin 2048) : EReal :=
  Ideal.div (expo Q K M b h q k) (denom Q K M b h q)

/-- The attention weights as an array. -/
def probs (Q K : Heads) (M : Mask) : Probs :=
  fun i => prob Q K M ⟨(i 0).val, (i 0).isLt⟩ ⟨(i 1).val, (i 1).isLt⟩ ⟨(i 2).val, (i 2).isLt⟩ ⟨(i 3).val, (i 3).isLt⟩

theorem probs_ix4 (Q K : Heads) (M : Mask) (b : Fin 2) (h : Fin 16) (q k : Fin 2048) :
    probs Q K M (ix4 b h q k) = prob Q K M b h q k := rfl

/-- The attended value at (b, h, q, d). -/
def attendAt (Q K V : Heads) (M : Mask) (b : Fin 2) (h : Fin 16) (q : Fin 2048) (d : Fin 64) : EReal :=
  ∑ k : Fin 2048, prob Q K M b h q k * V (ix4 b h k d)

/-- The attended values as an array. -/
def attend (Q K V : Heads) (M : Mask) : Heads :=
  fun i => attendAt Q K V M ⟨(i 0).val, (i 0).isLt⟩ ⟨(i 1).val, (i 1).isLt⟩ ⟨(i 2).val, (i 2).isLt⟩ ⟨(i 3).val, (i 3).isLt⟩

theorem attend_ix4 (Q K V : Heads) (M : Mask) (b : Fin 2) (h : Fin 16) (q : Fin 2048) (d : Fin 64) :
    attend Q K V M (ix4 b h q d) = attendAt Q K V M b h q d := rfl

end Cert.Mha

end
-- ==== Proof.Model.lean ====
/-
  Multi-head attention as one function of its twelve arguments, in the layouts the kernel uses.

  An input [2, 2048, 1024] is flattened to 4096 rows, projected (X·Wᵀ + B with the bias kept as a row), and reshaped
  back; a projection is split into 16 heads of 64 features and transposed to [2, 16, 2048, 64]; the weights are the
  attention weights of the query heads against the key heads under the mask; the attended values are transposed back,
  merged to [2, 2048, 1024], and projected once more.
-/
import proofs.«158408_j34445637714311_2_alg».proof.Proof.Spec
import proofs.«158408_j34445637714311_2_alg».proof.KernelIdeal
import proofs.«158408_j34445637714311_2_alg».proof.Proof.Gen.KernelIdeal

noncomputable section

namespace Cert.Mha.Model

open Idealize.ShloMosaic Cert.KernelIdeal Cert.KernelIdeal.Gen Cert.Mha

abbrev Act := S2x2048x1024.Idx → EReal
abbrev Bias := S1024.Idx → EReal

/-- An activation as 4096 rows. -/
def rows (x : Act) : Rows := shapeCast S4096x1024 x shapeCasts_S2x2048x1024_S4096x1024
/-- A bias vector as a row. -/
def biasRow (b : Bias) : BiasRow := shapeCast S1x1024 b shapeCasts_S1024_S1x1024
/-- 4096 rows as an activation. -/
def unrows (y : Rows) : Act := shapeCast S2x2048x1024 y shapeCasts_S4096x1024_S2x2048x1024
/-- A linear layer: x·Wᵀ + b on every row. -/
def proj (x : Act) (w : Weights) (b : Bias) : Act := unrows (lin (rows x) w (biasRow b))
/-- An activation split into 16 heads, heads before positions. -/
def heads (p : Act) : Heads :=
  transpose S2x16x2048x64 [0, 2, 1, 3] (shapeCast S2x2048x16x64 p shapeCasts_S2x2048x1024_S2x2048x16x64)
    transposes_S2x2048x16x64_S2x16x2048x64_0_2_1_3
/-- Heads put back side by side. -/
def merge (o : Heads) : Act :=
  shapeCast S2x2048x1024 (transpose S2x2048x16x64 [0, 2, 1, 3] o transposes_S2x16x2048x64_S2x2048x16x64_0_2_1_3)
    shapeCasts_S2x2048x16x64_S2x2048x1024

/-- The attention weights. -/
def weights (x0 x1 : Act) (x3 : Mask) (x4 : Weights) (x5 : Bias) (x6 : Weights) (x7 : Bias) : Probs :=
  probs (heads (proj x0 x4 x5)) (heads (proj x1 x6 x7)) x3

/-- The attention output. -/
def output (x0 x1 x2 : Act) (x3 : Mask) (x4 : Weights) (x5 : Bias) (x6 : Weights) (x7 : Bias) (x8 : Weights) (x9 : Bias)
    (x10 : Weights) (x11 : Bias) : Act :=
  proj (merge (attend (heads (proj x0 x4 x5)) (heads (proj x1 x6 x7)) (heads (proj x2 x8 x9)) x3)) x10 x11

end Cert.Mha.Model

end
-- ==== Proof.LibTransposedMatmul.lean ====
/-
  A matrix product with the right operand contracted on its LAST axis, read at an entry. For an M×K left operand and an
  N×K right operand (left axis 1 against right axis 1, no batch axis) the exact product into a zero accumulator has, at
  row r and column c, the value  Σ_k lhs(r, k) · rhs(c, k): the operand indices at output index (r, c) and contraction
  position k are (r, k) and (c, k). This is the product  A · Bᵀ.
-/
import Idealize.ShloMosaic.PureOps.Ideal.Laws
import Idealize.ShloMosaic.Lib.ValueIdx

noncomputable section

namespace TransposedMatmul

open Idealize.ShloMosaic Idealize.ShloMosaic.ValueIdx

variable {M K N : ℕ}

/-- The left operand's row is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The product into the zero accumulator, at (r, c), is Σ_k lhs(r, k) · rhs(c, k). -/
theorem apply_zero {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end TransposedMatmul

end
-- ==== Proof.LinRegion0.lean ====
/-
  What a linear-layer region leaves in its output array.

  The region walks 8 grid points. At point t it reads rows 512·t … 512·t + 511 of the [4096, 1024] input X, the whole
  [1024, 1024] weight matrix W (rows are output features) and the whole [1, 1024] bias row B, and stores, at row p and
  column e of the [512, 1024] output block,  Σ_d X(512·t + p, d) · W(e, d) + B(0, e)  — the product of the row block
  with Wᵀ into a zero accumulator, plus the bias row repeated down the rows. The output blocks of the 8 points are the
  rows 512·t … 512·t + 511 of the [4096, 1024] output: they cover it, so the output array ends holding X·Wᵀ + B.
-/
import proofs.«158408_j34445637714311_2_alg».proof.Proof.Spec
import proofs.«158408_j34445637714311_2_alg».proof.Proof.Gen.KernelIdeal.Frame
import proofs.«158408_j34445637714311_2_alg».proof.Proof.LibTransposedMatmul
import Idealize.ShloMosaic.Lib.Pipeline.Value
import Idealize.ShloMosaic.Lib.ValueLayout

set_option maxRecDepth 16384

noncomputable section

namespace Cert.Mha.Lin0

open Cert.KernelIdeal Cert.KernelIdeal.Gen Idealize.ShloMosaic Idealize.ShloMosaic.TcCoe Idealize.SL.Sem
open Idealize.ShloMosaic.ValueIdx
open Idealize.ShloMosaic.Pipeline (Dat)

/-! ## The block's entries -/

/-- The offset of every whole-buffer access is zero on both axes. -/
theorem zero_offset : (![0, 0] : Fin 2 → Nat) = fun _ => 0 := funext fun a => by fin_cases a <;> rfl

/-- The product X·Wᵀ of a [512, 1024] row block with the [1024, 1024] weights into the zero accumulator, at row p and
    column e, is Σ_d X(p, d)·W(e, d): the printed contraction (left axis 1 against right axis 1) is the transposed-right one. -/
theorem product_apply {φ₁ φ₂ : FTy} (a : FVec Ideal S512x1024 φ₁) (b : FVec Ideal S1024x1024 φ₂) (p : Fin 512) (e : Fin 1024) :
    FloatOps.matmul dot_S512x1024_S1024x1024_S512x1024_1_1_0_0_n_n none a b (constant (F := Ideal) S512x1024 .f32 0x00000000#32) (ix2 p e)
      = ∑ d : Fin 1024, a (ix2 p d) * b (ix2 e d) :=
  TransposedMatmul.apply_zero (M := 512) (K := 1024) (N := 1024) a b p e

/-- What the body stores at row p, column e of its block: Σ_d x(p, d)·w(e, d) + bias(0, e). Rounding the operands to
    the narrower format is the identity on the extended reals, the two reshapes are to the same shape, and the bias row
    is repeated down the rows. -/
theorem stored_apply (x : Vec Ideal S512x1024 .f32) (w : Vec Ideal S1024x1024 .f32) (bias : Vec Ideal S1x1024 .f32)
    (p : Fin 512) (e : Fin 1024) :
    k0_pay1 (F := Ideal) x w bias (ix2 p e) = (∑ d : Fin 1024, x (ix2 p d) * w (ix2 e d)) + bias (ix2 (0 : Fin 1) e) := by
  unfold k0_pay1
  refine (addf_apply _ _ _).trans ?_
  refine congrArg₂ (· + ·) ?_ ?_
  · refine (product_apply _ _ p e).trans ?_
    refine Finset.sum_congr rfl fun d _ => ?_
    refine congrArg₂ (· * ·) ?_ rfl
    exact congrFun (shapeCast_self x _) (ix2 p d)
  · refine (broadcastTo_1b_ab_apply _ _ p e).trans ?_
    exact congrFun (shapeCast_self bias _) (ix2 (0 : Fin 1) e)

/-- The same entry against the whole arrays: when the block's row p is row r of X, and the weight and bias blocks are
    the weight and bias arrays themselves, the stored entry is entry (r, e) of X·Wᵀ + B. -/
theorem stored_eq_linAt (X : Rows) (W : Weights) (B : BiasRow)
    (x : Vec Ideal S512x1024 .f32) (w : Vec Ideal S1024x1024 .f32) (bias : Vec Ideal S1x1024 .f32)
    (r : Fin 4096) (p : Fin 512) (e : Fin 1024)
    (hx : ∀ d : Fin 1024, x (ix2 p d) = X (ix2 r d))
    (hw : ∀ d : Fin 1024, w (ix2 e d) = W (ix2 e d))
    (hb : bias (ix2 (0 : Fin 1) e) = B (ix2 (0 : Fin 1) e)) :
    k0_pay1 (F := Ideal) x w bias (ix2 p e) = linAt X W B r e := by
  rw [stored_apply, hb]
  unfold linAt
  exact congrArg (· + B (ix2 (0 : Fin 1) e)) (Finset.sum_congr rfl fun d _ => by rw [hx d, hw d])

/-! ## The blocks' places in their arrays -/

/-- The index maps over the 8 grid points: the input rows' and the output's block index is (t, 0); the weights' and the
    bias row's is (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are 8 grid points. -/
theorem point_lt (t : Fin cfg0.N) : t.val < 8 := lt_of_lt_of_eq t.isLt N_0

variable (V : (c : Dev nD) → (b : Ref sig .tc) → Buf (Elt Ideal) ((c : Thread nD τ).loc b))

/-- WHAT POINT t WRITES BACK is block t — rows 512·t … 512·t + 511 — of X·Wᵀ + B for the arrays X, W, B the region finds. -/
theorem flushed_eq (c : Dev nD) (t : Fin cfg0.N) :
    (dat0 (F := Ideal) V c).flushed 3 t
      = ((cfg0.win 3).blk t).view.read (Elt Ideal)
          (lin (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zero_offset]
  simp only [View.ld_unit_zero (S := S512x1024) zero_offset, View.ld_unit_zero (S := S1024x1024) zero_offset,
    View.ld_unit_zero (S := S1x1024) zero_offset]
  obtain ⟨i00, i01, i10, i11, i20, i21, i30, i31⟩ := block_indices t
  have ht : t.val < 8 := point_lt t
  funext j
  obtain ⟨p, e, rfl⟩ : ∃ (p : Fin 512) (e : Fin 1024), j = ix2 p e := ⟨j 0, j 1, eq_ix2 j⟩
  -- row p of the output block is row 512·t + p of the output array
  have hout : ((cfg0.win 3).blk t).view.emb (ix2 p e) = ix2 (⟨t.val * 512 + p.val, by omega⟩ : Fin 4096) e := by
    funext a; apply Fin.ext
    match a with
    | ⟨0, _⟩ => show win0_3.index t (0 : Fin 2) * 512 + 1 * p.val = t.val * 512 + p.val; omega
    | ⟨1, _⟩ => show win0_3.index t (1 : Fin 2) * 1024 + 1 * e.val = e.val; omega
  show k0_pay1 (F := Ideal) (iblk0 V c 0 t) (iblk0 V c 1 t) (iblk0 V c 2 t) (ix2 p e)
    = lin (V c (Pipeline.arrRef spec0 0)) (V c (Pipeline.arrRef spec0 1)) (V c (Pipeline.arrRef spec0 2)) (((cfg0.win 3).blk t).view.emb (ix2 p e))
  rw [hout, lin_ix2]
  refine stored_eq_linAt _ _ _ (iblk0 V c 0 t) (iblk0 V c 1 t) (iblk0 V c 2 t) _ p e (fun d => ?_) (fun d => ?_) ?_
  · -- row p of the input block is row 512·t + p of X
    show V c (Pipeline.arrRef spec0 0) (((cfg0.win 0).blk t).view.emb (ix2 p d)) = _
    refine congrArg _ ?_
    funext a; apply Fin.ext
    match a with
    | ⟨0, _⟩ => show win0_0.index t (0 : Fin 2) * 512 + 1 * p.val = t.val * 512 + p.val; omega
    | ⟨1, _⟩ => show win0_0.index t (1 : Fin 2) * 1024 + 1 * d.val = d.val; omega
  · -- the weight block is W
    show V c (Pipeline.arrRef spec0 1) (((cfg0.win 1).blk t).view.emb (ix2 e d)) = _
    refine congrArg _ ?_
    funext a; apply Fin.ext
    match a with
    | ⟨0, _⟩ => show win0_1.index t (0 : Fin 2) * 1024 + 1 * e.val = e.val; omega
    | ⟨1, _⟩ => show win0_1.index t (1 : Fin 2) * 1024 + 1 * d.val = d.val; omega
  · -- the bias block is B
    show V c (Pipeline.arrRef spec0 2) (((cfg0.win 2).blk t).view.emb (ix2 (0 : Fin 1) e)) = _
    refine congrArg _ ?_
    funext a; apply Fin.ext
    match a with
    | ⟨0, _⟩ => show win0_2.index t (0 : Fin 2) * 1 + 1 * (0 : Fin 1).val = (0 : Fin 1).val; omega
    | ⟨1, _⟩ => show win0_2.index t (1 : Fin 2) * 1024 + 1 * e.val = e.val; omega

/-! ## The blocks cover the output -/

/-- An index of the output array is in point t's block iff each coordinate is in the block's range on its axis. -/
theorem mem_block (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- Row r of the output lies in the block of point r / 512. -/
theorem covered (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  let t : Fin cfg0.N := ⟨(i 0).val / 512, lt_of_lt_of_eq (by omega : (i 0).val / 512 < 8) N_0.symm⟩
  obtain ⟨-, -, -, -, -, -, i30, i31⟩ := block_indices t
  have tv : t.val = (i 0).val / 512 := rfl
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE OUTPUT ARRAY after the region is X·Wᵀ + B of the arrays the region finds. -/
theorem final (c : Dev nD) :
    (dat0 (F := Ideal) V c).arrAt 3 cfg0.N
      = lin (V c (Pipeline.arrRef spec0 0)) (V c (Pipeline.arrRef spec0 1)) (V c (Pipeline.arrRef spec0 2)) :=
  (dat0 (F := Ideal) V c).arrAt_eq_of_cover 3 _ (fun t _ => flushed_eq V c t) covered

end Cert.Mha.Lin0

end
-- ==== Proof.LinRegion1.lean ====
/-
  What a linear-layer region leaves in its output array.

  The region walks 8 grid points. At point t it reads rows 512·t … 512·t + 511 of the [4096, 1024] input X, the whole
  [1024, 1024] weight matrix W (rows are output features) and the whole [1, 1024] bias row B, and stores, at row p and
  column e of the [512, 1024] output block,  Σ_d X(512·t + p, d) · W(e, d) + B(0, e)  — the product of the row block
  with Wᵀ into a zero accumulator, plus the bias row repeated down the rows. The output blocks of the 8 points are the
  rows 512·t … 512·t + 511 of the [4096, 1024] output: they cover it, so the output array ends holding X·Wᵀ + B.
-/
import proofs.«158408_j34445637714311_2_alg».proof.Proof.Spec
import proofs.«158408_j34445637714311_2_alg».proof.Proof.Gen.KernelIdeal.Frame
import proofs.«158408_j34445637714311_2_alg».proof.Proof.LibTransposedMatmul
import Idealize.ShloMosaic.Lib.Pipeline.Value
import Idealize.ShloMosaic.Lib.ValueLayout

set_option maxRecDepth 16384

noncomputable section

namespace Cert.Mha.Lin1

open Cert.KernelIdeal Cert.KernelIdeal.Gen Idealize.ShloMosaic Idealize.ShloMosaic.TcCoe Idealize.SL.Sem
open Idealize.ShloMosaic.ValueIdx
open Idealize.ShloMosaic.Pipeline (Dat)

/-! ## The block's entries -/

/-- The offset of every whole-buffer access is zero on both axes. -/
theorem zero_offset : (![0, 0] : Fin 2 → Nat) = fun _ => 0 := funext fun a => by fin_cases a <;> rfl

/-- The product X·Wᵀ of a [512, 1024] row block with the [1024, 1024] weights into the zero accumulator, at row p and
    column e, is Σ_d X(p, d)·W(e, d): the printed contraction (left axis 1 against right axis 1) is the transposed-right one. -/
theorem product_apply {φ₁ φ₂ : FTy} (a : FVec Ideal S512x1024 φ₁) (b : FVec Ideal S1024x1024 φ₂) (p : Fin 512) (e : Fin 1024) :
    FloatOps.matmul dot_S512x1024_S1024x1024_S512x1024_1_1_0_0_n_n none a b (constant (F := Ideal) S512x1024 .f32 0x00000000#32) (ix2 p e)
      = ∑ d : Fin 1024, a (ix2 p d) * b (ix2 e d) :=
  TransposedMatmul.apply_zero (M := 512) (K := 1024) (N := 1024) a b p e

/-- What the body stores at row p, column e of its block: Σ_d x(p, d)·w(e, d) + bias(0, e). Rounding the operands to
    the narrower format is the identity on the extended reals, the two reshapes are to the same shape, and the bias row
    is repeated down the rows. -/
theorem stored_apply (x : Vec Ideal S512x1024 .f32) (w : Vec Ideal S1024x1024 .f32) (bias : Vec Ideal S1x1024 .f32)
    (p : Fin 512) (e : Fin 1024) :
    k1_pay1 (F := Ideal) x w bias (ix2 p e) = (∑ d : Fin 1024, x (ix2 p d) * w (ix2 e d)) + bias (ix2 (0 : Fin 1) e) := by
  unfold k1_pay1
  refine (addf_apply _ _ _).trans ?_
  refine congrArg₂ (· + ·) ?_ ?_
  · refine (product_apply _ _ p e).trans ?_
    refine Finset.sum_congr rfl fun d _ => ?_
    refine congrArg₂ (· * ·) ?_ rfl
    exact congrFun (shapeCast_self x _) (ix2 p d)
  · refine (broadcastTo_1b_ab_apply _ _ p e).trans ?_
    exact congrFun (shapeCast_self bias _) (ix2 (0 : Fin 1) e)

/-- The same entry against the whole arrays: when the block's row p is row r of X, and the weight and bias blocks are
    the weight and bias arrays themselves, the stored entry is entry (r, e) of X·Wᵀ + B. -/
theorem stored_eq_linAt (X : Rows) (W : Weights) (B : BiasRow)
    (x : Vec Ideal S512x1024 .f32) (w : Vec Ideal S1024x1024 .f32) (bias : Vec Ideal S1x1024 .f32)
    (r : Fin 4096) (p : Fin 512) (e : Fin 1024)
    (hx : ∀ d : Fin 1024, x (ix2 p d) = X (ix2 r d))
    (hw : ∀ d : Fin 1024, w (ix2 e d) = W (ix2 e d))
    (hb : bias (ix2 (0 : Fin 1) e) = B (ix2 (0 : Fin 1) e)) :
    k1_pay1 (F := Ideal) x w bias (ix2 p e) = linAt X W B r e := by
  rw [stored_apply, hb]
  unfold linAt
  exact congrArg (· + B (ix2 (0 : Fin 1) e)) (Finset.sum_congr rfl fun d _ => by rw [hx d, hw d])

/-! ## The blocks' places in their arrays -/

/-- The index maps over the 8 grid points: the input rows' and the output's block index is (t, 0); the weights' and the
    bias row's is (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- There are 8 grid points. -/
theorem point_lt (t : Fin cfg1.N) : t.val < 8 := lt_of_lt_of_eq t.isLt N_1

variable (V : (c : Dev nD) → (b : Ref sig .tc) → Buf (Elt Ideal) ((c : Thread nD τ).loc b))

/-- WHAT POINT t WRITES BACK is block t — rows 512·t … 512·t + 511 — of X·Wᵀ + B for the arrays X, W, B the region finds. -/
theorem flushed_eq (c : Dev nD) (t : Fin cfg1.N) :
    (dat1 (F := Ideal) V c).flushed 3 t
      = ((cfg1.win 3).blk t).view.read (Elt Ideal)
          (lin (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zero_offset]
  simp only [View.ld_unit_zero (S := S512x1024) zero_offset, View.ld_unit_zero (S := S1024x1024) zero_offset,
    View.ld_unit_zero (S := S1x1024) zero_offset]
  obtain ⟨i00, i01, i10, i11, i20, i21, i30, i31⟩ := block_indices t
  have ht : t.val < 8 := point_lt t
  funext j
  obtain ⟨p, e, rfl⟩ : ∃ (p : Fin 512) (e : Fin 1024), j = ix2 p e := ⟨j 0, j 1, eq_ix2 j⟩
  -- row p of the output block is row 512·t + p of the output array
  have hout : ((cfg1.win 3).blk t).view.emb (ix2 p e) = ix2 (⟨t.val * 512 + p.val, by omega⟩ : Fin 4096) e := by
    funext a; apply Fin.ext
    match a with
    | ⟨0, _⟩ => show win1_3.index t (0 : Fin 2) * 512 + 1 * p.val = t.val * 512 + p.val; omega
    | ⟨1, _⟩ => show win1_3.index t (1 : Fin 2) * 1024 + 1 * e.val = e.val; omega
  show k1_pay1 (F := Ideal) (iblk1 V c 0 t) (iblk1 V c 1 t) (iblk1 V c 2 t) (ix2 p e)
    = lin (V c (Pipeline.arrRef spec1 0)) (V c (Pipeline.arrRef spec1 1)) (V c (Pipeline.arrRef spec1 2)) (((cfg1.win 3).blk t).view.emb (ix2 p e))
  rw [hout, lin_ix2]
  refine stored_eq_linAt _ _ _ (iblk1 V c 0 t) (iblk1 V c 1 t) (iblk1 V c 2 t) _ p e (fun d => ?_) (fun d => ?_) ?_
  · -- row p of the input block is row 512·t + p of X
    show V c (Pipeline.arrRef spec1 0) (((cfg1.win 0).blk t).view.emb (ix2 p d)) = _
    refine congrArg _ ?_
    funext a; apply Fin.ext
    match a with
    | ⟨0, _⟩ => show win1_0.index t (0 : Fin 2) * 512 + 1 * p.val = t.val * 512 + p.val; omega
    | ⟨1, _⟩ => show win1_0.index t (1 : Fin 2) * 1024 + 1 * d.val = d.val; omega
  · -- the weight block is W
    show V c (Pipeline.arrRef spec1 1) (((cfg1.win 1).blk t).view.emb (ix2 e d)) = _
    refine congrArg _ ?_
    funext a; apply Fin.ext
    match a with
    | ⟨0, _⟩ => show win1_1.index t (0 : Fin 2) * 1024 + 1 * e.val = e.val; omega
    | ⟨1, _⟩ => show win1_1.index t (1 : Fin 2) * 1024 + 1 * d.val = d.val; omega
  · -- the bias block is B
    show V c (Pipeline.arrRef spec1 2) (((cfg1.win 2).blk t).view.emb (ix2 (0 : Fin 1) e)) = _
    refine congrArg _ ?_
    funext a; apply Fin.ext
    match a with
    | ⟨0, _⟩ => show win1_2.index t (0 : Fin 2) * 1 + 1 * (0 : Fin 1).val = (0 : Fin 1).val; omega
    | ⟨1, _⟩ => show win1_2.index t (1 : Fin 2) * 1024 + 1 * e.val = e.val; omega

/-! ## The blocks cover the output -/

/-- An index of the output array is in point t's block iff each coordinate is in the block's range on its axis. -/
theorem mem_block (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v7).slice (win1_3.rect t)).set ↔ _
  rw [View.set_slice_whole, Rect.mem_set_unit]
  exact Iff.rfl

/-- Row r of the output lies in the block of point r / 512. -/
theorem covered (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  let t : Fin cfg1.N := ⟨(i 0).val / 512, lt_of_lt_of_eq (by omega : (i 0).val / 512 < 8) N_1.symm⟩
  obtain ⟨-, -, -, -, -, -, i30, i31⟩ := block_indices t
  have tv : t.val = (i 0).val / 512 := rfl
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE OUTPUT ARRAY after the region is X·Wᵀ + B of the arrays the region finds. -/
theorem final (c : Dev nD) :
    (dat1 (F := Ideal) V c).arrAt 3 cfg1.N
      = lin (V c (Pipeline.arrRef spec1 0)) (V c (Pipeline.arrRef spec1 1)) (V c (Pipeline.arrRef spec1 2)) :=
  (dat1 (F := Ideal) V c).arrAt_eq_of_cover 3 _ (fun t _ => flushed_eq V c t) covered

end Cert.Mha.Lin1

end
-- ==== Proof.LinRegion2.lean ====
/-
  What a linear-layer region leaves in its output array.

  The region walks 8 grid points. At point t it reads rows 512·t … 512·t + 511 of the [4096, 1024] input X, the whole
  [1024, 1024] weight matrix W (rows are output features) and the whole [1, 1024] bias row B, and stores, at row p and
  column e of the [512, 1024] output block,  Σ_d X(512·t + p, d) · W(e, d) + B(0, e)  — the product of the row block
  with Wᵀ into a zero accumulator, plus the bias row repeated down the rows. The output blocks of the 8 points are the
  rows 512·t … 512·t + 511 of the [4096, 1024] output: they cover it, so the output array ends holding X·Wᵀ + B.
-/
import proofs.«158408_j34445637714311_2_alg».proof.Proof.Spec
import proofs.«158408_j34445637714311_2_alg».proof.Proof.Gen.KernelIdeal.Frame
import proofs.«158408_j34445637714311_2_alg».proof.Proof.LibTransposedMatmul
import Idealize.ShloMosaic.Lib.Pipeline.Value
import Idealize.ShloMosaic.Lib.ValueLayout

set_option maxRecDepth 16384

noncomputable section

namespace Cert.Mha.Lin2

open Cert.KernelIdeal Cert.KernelIdeal.Gen Idealize.ShloMosaic Idealize.ShloMosaic.TcCoe Idealize.SL.Sem
open Idealize.ShloMosaic.ValueIdx
open Idealize.ShloMosaic.Pipeline (Dat)

/-! ## The block's entries -/

/-- The offset of every whole-buffer access is zero on both axes. -/
theorem zero_offset : (![0, 0] : Fin 2 → Nat) = fun _ => 0 := funext fun a => by fin_cases a <;> rfl

/-- The product X·Wᵀ of a [512, 1024] row block with the [1024, 1024] weights into the zero accumulator, at row p and
    column e, is Σ_d X(p, d)·W(e, d): the printed contraction (left axis 1 against right axis 1) is the transposed-right one. -/
theorem product_apply {φ₁ φ₂ : FTy} (a : FVec Ideal S512x1024 φ₁) (b : FVec Ideal S1024x1024 φ₂) (p : Fin 512) (e : Fin 1024) :
    FloatOps.matmul dot_S512x1024_S1024x1024_S512x1024_1_1_0_0_n_n none a b (constant (F := Ideal) S512x1024 .f32 0x00000000#32) (ix2 p e)
      = ∑ d : Fin 1024, a (ix2 p d) * b (ix2 e d) :=
  TransposedMatmul.apply_zero (M := 512) (K := 1024) (N := 1024) a b p e

/-- What the body stores at row p, column e of its block: Σ_d x(p, d)·w(e, d) + bias(0, e). Rounding the operands to
    the narrower format is the identity on the extended reals, the two reshapes are to the same shape, and the bias row
    is repeated down the rows. -/
theorem stored_apply (x : Vec Ideal S512x1024 .f32) (w : Vec Ideal S1024x1024 .f32) (bias : Vec Ideal S1x1024 .f32)
    (p : Fin 512) (e : Fin 1024) :
    k2_pay1 (F := Ideal) x w bias (ix2 p e) = (∑ d : Fin 1024, x (ix2 p d) * w (ix2 e d)) + bias (ix2 (0 : Fin 1) e) := by
  unfold k2_pay1
  refine (addf_apply _ _ _).trans ?_
  refine congrArg₂ (· + ·) ?_ ?_
  · refine (product_apply _ _ p e).trans ?_
    refine Finset.sum_congr rfl fun d _ => ?_
    refine congrArg₂ (· * ·) ?_ rfl
    exact congrFun (shapeCast_self x _) (ix2 p d)
  · refine (broadcastTo_1b_ab_apply _ _ p e).trans ?_
    exact congrFun (shapeCast_self bias _) (ix2 (0 : Fin 1) e)

/-- The same entry against the whole arrays: when the block's row p is row r of X, and the weight and bias blocks are
    the weight and bias arrays themselves, the stored entry is entry (r, e) of X·Wᵀ + B. -/
theorem stored_eq_linAt (X : Rows) (W : Weights) (B : BiasRow)
    (x : Vec Ideal S512x1024 .f32) (w : Vec Ideal S1024x1024 .f32) (bias : Vec Ideal S1x1024 .f32)
    (r : Fin 4096) (p : Fin 512) (e : Fin 1024)
    (hx : ∀ d : Fin 1024, x (ix2 p d) = X (ix2 r d))
    (hw : ∀ d : Fin 1024, w (ix2 e d) = W (ix2 e d))
    (hb : bias (ix2 (0 : Fin 1) e) = B (ix2 (0 : Fin 1) e)) :
    k2_pay1 (F := Ideal) x w bias (ix2 p e) = linAt X W B r e := by
  rw [stored_apply, hb]
  unfold linAt
  exact congrArg (· + B (ix2 (0 : Fin 1) e)) (Finset.sum_congr rfl fun d _ => by rw [hx d, hw d])

/-! ## The blocks' places in their arrays -/

/-- The index maps over the 8 grid points: the input rows' and the output's block index is (t, 0); the weights' and the
    bias row's is (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- There are 8 grid points. -/
theorem point_lt (t : Fin cfg2.N) : t.val < 8 := lt_of_lt_of_eq t.isLt N_2

variable (V : (c : Dev nD) → (b : Ref sig .tc) → Buf (Elt Ideal) ((c : Thread nD τ).loc b))

/-- WHAT POINT t WRITES BACK is block t — rows 512·t … 512·t + 511 — of X·Wᵀ + B for the arrays X, W, B the region finds. -/
theorem flushed_eq (c : Dev nD) (t : Fin cfg2.N) :
    (dat2 (F := Ideal) V c).flushed 3 t
      = ((cfg2.win 3).blk t).view.read (Elt Ideal)
          (lin (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero zero_offset]
  simp only [View.ld_unit_zero (S := S512x1024) zero_offset, View.ld_unit_zero (S := S1024x1024) zero_offset,
    View.ld_unit_zero (S := S1x1024) zero_offset]
  obtain ⟨i00, i01, i10, i11, i20, i21, i30, i31⟩ := block_indices t
  have ht : t.val < 8 := point_lt t
  funext j
  obtain ⟨p, e, rfl⟩ : ∃ (p : Fin 512) (e : Fin 1024), j = ix2 p e := ⟨j 0, j 1, eq_ix2 j⟩
  -- row p of the output block is row 512·t + p of the output array
  have hout : ((cfg2.win 3).blk t).view.emb (ix2 p e) = ix2 (⟨t.val * 512 + p.val, by omega⟩ : Fin 4096) e := by
    funext a; apply Fin.ext
    match a with
    | ⟨0, _⟩ => show win2_3.index t (0 : Fin 2) * 512 + 1 * p.val = t.val * 512 + p.val; omega
    | ⟨1, _⟩ => show win2_3.index t (1 : Fin 2) * 1024 + 1 * e.val = e.val; omega
  show k2_pay1 (F := Ideal) (iblk2 V c 0 t) (iblk2 V c 1 t) (iblk2 V c 2 t) (ix2 p e)
    = lin (V c (Pipeline.arrRef spec2 0)) (V c (Pipeline.arrRef spec2 1)) (V c (Pipeline.arrRef spec2 2)) (((cfg2.win 3).blk t).view.emb (ix2 p e))
  rw [hout, lin_ix2]
  refine stored_eq_linAt _ _ _ (iblk2 V c 0 t) (iblk2 V c 1 t) (iblk2 V c 2 t) _ p e (fun d => ?_) (fun d => ?_) ?_
  · -- row p of the input block is row 512·t + p of X
    show V c (Pipeline.arrRef spec2 0) (((cfg2.win 0).blk t).view.emb (ix2 p d)) = _
    refine congrArg _ ?_
    funext a; apply Fin.ext
    match a with
    | ⟨0, _⟩ => show win2_0.index t (0 : Fin 2) * 512 + 1 * p.val = t.val * 512 + p.val; omega
    | ⟨1, _⟩ => show win2_0.index t (1 : Fin 2) * 1024 + 1 * d.val = d.val; omega
  · -- the weight block is W
    show V c (Pipeline.arrRef spec2 1) (((cfg2.win 1).blk t).view.emb (ix2 e d)) = _
    refine congrArg _ ?_
    funext a; apply Fin.ext
    match a with
    | ⟨0, _⟩ => show win2_1.index t (0 : Fin 2) * 1024 + 1 * e.val = e.val; omega
    | ⟨1, _⟩ => show win2_1.index t (1 : Fin 2) * 1024 + 1 * d.val = d.val; omega
  · -- the bias block is B
    show V c (Pipeline.arrRef spec2 2) (((cfg2.win 2).blk t).view.emb (ix2 (0 : Fin 1) e)) = _
    refine congrArg _ ?_
    funext a; apply Fin.ext
    match a with
    | ⟨0, _⟩ => show win2_2.index t (0 : Fin 2) * 1 + 1 * (0 : Fin 1).val = (0 : Fin 1).val; omega
    | ⟨1, _⟩ => show win2_2.index t (1 : Fin 2) * 1024 + 1 * e.val = e.val; omega

/-! ## The blocks cover the output -/

/-- An index of the output array is in point t's block iff each coordinate is in the block's range on its axis. -/
theorem mem_block (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v10).slice (win2_3.rect t)).set ↔ _
  rw [View.set_slice_whole, Rect.mem_set_unit]
  exact Iff.rfl

/-- Row r of the output lies in the block of point r / 512. -/
theorem covered (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  let t : Fin cfg2.N := ⟨(i 0).val / 512, lt_of_lt_of_eq (by omega : (i 0).val / 512 < 8) N_2.symm⟩
  obtain ⟨-, -, -, -, -, -, i30, i31⟩ := block_indices t
  have tv : t.val = (i 0).val / 512 := rfl
  refine ⟨t, flush2_3 t, ?_⟩
  rw [mem_block]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE OUTPUT ARRAY after the region is X·Wᵀ + B of the arrays the region finds. -/
theorem final (c : Dev nD) :
    (dat2 (F := Ideal) V c).arrAt 3 cfg2.N
      = lin (V c (Pipeline.arrRef spec2 0)) (V c (Pipeline.arrRef spec2 1)) (V c (Pipeline.arrRef spec2 2)) :=
  (dat2 (F := Ideal) V c).arrAt_eq_of_cover 3 _ (fun t _ => flushed_eq V c t) covered

end Cert.Mha.Lin2

end
-- ==== Proof.LinRegion4.lean ====
/-
  What a linear-layer region leaves in its output array.

  The region walks 8 grid points. At point t it reads rows 512·t … 512·t + 511 of the [4096, 1024] input X, the whole
  [1024, 1024] weight matrix W (rows are output features) and the whole [1, 1024] bias row B, and stores, at row p and
  column e of the [512, 1024] output block,  Σ_d X(512·t + p, d) · W(e, d) + B(0, e)  — the product of the row block
  with Wᵀ into a zero accumulator, plus the bias row repeated down the rows. The output blocks of the 8 points are the
  rows 512·t … 512·t + 511 of the [4096, 1024] output: they cover it, so the output array ends holding X·Wᵀ + B.
-/
import proofs.«158408_j34445637714311_2_alg».proof.Proof.Spec
import proofs.«158408_j34445637714311_2_alg».proof.Proof.Gen.KernelIdeal.Frame
import proofs.«158408_j34445637714311_2_alg».proof.Proof.LibTransposedMatmul
import Idealize.ShloMosaic.Lib.Pipeline.Value
import Idealize.ShloMosaic.Lib.ValueLayout

set_option maxRecDepth 16384

noncomputable section

namespace Cert.Mha.Lin4

open Cert.KernelIdeal Cert.KernelIdeal.Gen Idealize.ShloMosaic Idealize.ShloMosaic.TcCoe Idealize.SL.Sem
open Idealize.ShloMosaic.ValueIdx
open Idealize.ShloMosaic.Pipeline (Dat)

/-! ## The block's entries -/

/-- The offset of every whole-buffer access is zero on both axes. -/
theorem zero_offset : (![0, 0] : Fin 2 → Nat) = fun _ => 0 := funext fun a => by fin_cases a <;> rfl

/-- The product X·Wᵀ of a [512, 1024] row block with the [1024, 1024] weights into the zero accumulator, at row p and
    column e, is Σ_d X(p, d)·W(e, d): the printed contraction (left axis 1 against right axis 1) is the transposed-right one. -/
theorem product_apply {φ₁ φ₂ : FTy} (a : FVec Ideal S512x1024 φ₁) (b : FVec Ideal S1024x1024 φ₂) (p : Fin 512) (e : Fin 1024) :
    FloatOps.matmul dot_S512x1024_S1024x1024_S512x1024_1_1_0_0_n_n none a b (constant (F := Ideal) S512x1024 .f32 0x00000000#32) (ix2 p e)
      = ∑ d : Fin 1024, a (ix2 p d) * b (ix2 e d) :=
  TransposedMatmul.apply_zero (M := 512) (K := 1024) (N := 1024) a b p e

/-- What the body stores at row p, column e of its block: Σ_d x(p, d)·w(e, d) + bias(0, e). Rounding the operands to
    the narrower format is the identity on the extended reals, the two reshapes are to the same shape, and the bias row
    is repeated down the rows. -/
theorem stored_apply (x : Vec Ideal S512x1024 .f32) (w : Vec Ideal S1024x1024 .f32) (bias : Vec Ideal S1x1024 .f32)
    (p : Fin 512) (e : Fin 1024) :
    k4_pay1 (F := Ideal) x w bias (ix2 p e) = (∑ d : Fin 1024, x (ix2 p d) * w (ix2 e d)) + bias (ix2 (0 : Fin 1) e) := by
  unfold k4_pay1
  refine (addf_apply _ _ _).trans ?_
  refine congrArg₂ (· + ·) ?_ ?_
  · refine (product_apply _ _ p e).trans ?_
    refine Finset.sum_congr rfl fun d _ => ?_
    refine congrArg₂ (· * ·) ?_ rfl
    exact congrFun (shapeCast_self x _) (ix2 p d)
  · refine (broadcastTo_1b_ab_apply _ _ p e).trans ?_
    exact congrFun (shapeCast_self bias _) (ix2 (0 : Fin 1) e)

/-- The same entry against the whole arrays: when the block's row p is row r of X, and the weight and bias blocks are
    the weight and bias arrays themselves, the stored entry is entry (r, e) of X·Wᵀ + B. -/
theorem stored_eq_linAt (X : Rows) (W : Weights) (B : BiasRow)
    (x : Vec Ideal S512x1024 .f32) (w : Vec Ideal S1024x1024 .f32) (bias : Vec Ideal S1x1024 .f32)
    (r : Fin 4096) (p : Fin 512) (e : Fin 1024)
    (hx : ∀ d : Fin 1024, x (ix2 p d) = X (ix2 r d))
    (hw : ∀ d : Fin 1024, w (ix2 e d) = W (ix2 e d))
    (hb : bias (ix2 (0 : Fin 1) e) = B (ix2 (0 : Fin 1) e)) :
    k4_pay1 (F := Ideal) x w bias (ix2 p e) = linAt X W B r e := by
  rw [stored_apply, hb]
  unfold linAt
  exact congrArg (· + B (ix2 (0 : Fin 1) e)) (Finset.sum_congr rfl fun d _ => by rw [hx d, hw d])

/-! ## The blocks' places in their arrays -/

/-- The index maps over the 8 grid points: the input rows' and the output's block index is (t, 0); the weights' and the
    bias row's is (0, 0). -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- There are 8 grid points. -/
theorem point_lt (t : Fin cfg4.N) : t.val < 8 := lt_of_lt_of_eq t.isLt N_4

variable (V : (c : Dev nD) → (b : Ref sig .tc) → Buf (Elt Ideal) ((c : Thread nD τ).loc b))

/-- WHAT POINT t WRITES BACK is block t — rows 512·t … 512·t + 511 — of X·Wᵀ + B for the arrays X, W, B the region finds. -/
theorem flushed_eq (c : Dev nD) (t : Fin cfg4.N) :
    (dat4 (F := Ideal) V c).flushed 3 t
      = ((cfg4.win 3).blk t).view.read (Elt Ideal)
          (lin (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero zero_offset]
  simp only [View.ld_unit_zero (S := S512x1024) zero_offset, View.ld_unit_zero (S := S1024x1024) zero_offset,
    View.ld_unit_zero (S := S1x1024) zero_offset]
  obtain ⟨i00, i01, i10, i11, i20, i21, i30, i31⟩ := block_indices t
  have ht : t.val < 8 := point_lt t
  funext j
  obtain ⟨p, e, rfl⟩ : ∃ (p : Fin 512) (e : Fin 1024), j = ix2 p e := ⟨j 0, j 1, eq_ix2 j⟩
  -- row p of the output block is row 512·t + p of the output array
  have hout : ((cfg4.win 3).blk t).view.emb (ix2 p e) = ix2 (⟨t.val * 512 + p.val, by omega⟩ : Fin 4096) e := by
    funext a; apply Fin.ext
    match a with
    | ⟨0, _⟩ => show win4_3.index t (0 : Fin 2) * 512 + 1 * p.val = t.val * 512 + p.val; omega
    | ⟨1, _⟩ => show win4_3.index t (1 : Fin 2) * 1024 + 1 * e.val = e.val; omega
  show k4_pay1 (F := Ideal) (iblk4 V c 0 t) (iblk4 V c 1 t) (iblk4 V c 2 t) (ix2 p e)
    = lin (V c (Pipeline.arrRef spec4 0)) (V c (Pipeline.arrRef spec4 1)) (V c (Pipeline.arrRef spec4 2)) (((cfg4.win 3).blk t).view.emb (ix2 p e))
  rw [hout, lin_ix2]
  refine stored_eq_linAt _ _ _ (iblk4 V c 0 t) (iblk4 V c 1 t) (iblk4 V c 2 t) _ p e (fun d => ?_) (fun d => ?_) ?_
  · -- row p of the input block is row 512·t + p of X
    show V c (Pipeline.arrRef spec4 0) (((cfg4.win 0).blk t).view.emb (ix2 p d)) = _
    refine congrArg _ ?_
    funext a; apply Fin.ext
    match a with
    | ⟨0, _⟩ => show win4_0.index t (0 : Fin 2) * 512 + 1 * p.val = t.val * 512 + p.val; omega
    | ⟨1, _⟩ => show win4_0.index t (1 : Fin 2) * 1024 + 1 * d.val = d.val; omega
  · -- the weight block is W
    show V c (Pipeline.arrRef spec4 1) (((cfg4.win 1).blk t).view.emb (ix2 e d)) = _
    refine congrArg _ ?_
    funext a; apply Fin.ext
    match a with
    | ⟨0, _⟩ => show win4_1.index t (0 : Fin 2) * 1024 + 1 * e.val = e.val; omega
    | ⟨1, _⟩ => show win4_1.index t (1 : Fin 2) * 1024 + 1 * d.val = d.val; omega
  · -- the bias block is B
    show V c (Pipeline.arrRef spec4 2) (((cfg4.win 2).blk t).view.emb (ix2 (0 : Fin 1) e)) = _
    refine congrArg _ ?_
    funext a; apply Fin.ext
    match a with
    | ⟨0, _⟩ => show win4_2.index t (0 : Fin 2) * 1 + 1 * (0 : Fin 1).val = (0 : Fin 1).val; omega
    | ⟨1, _⟩ => show win4_2.index t (1 : Fin 2) * 1024 + 1 * e.val = e.val; omega

/-! ## The blocks cover the output -/

/-- An index of the output array is in point t's block iff each coordinate is in the block's range on its axis. -/
theorem mem_block (t : Fin cfg4.N) (i : S4096x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v23).slice (win4_3.rect t)).set ↔ _
  rw [View.set_slice_whole, Rect.mem_set_unit]
  exact Iff.rfl

/-- Row r of the output lies in the block of point r / 512. -/
theorem covered (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  let t : Fin cfg4.N := ⟨(i 0).val / 512, lt_of_lt_of_eq (by omega : (i 0).val / 512 < 8) N_4.symm⟩
  obtain ⟨-, -, -, -, -, -, i30, i31⟩ := block_indices t
  have tv : t.val = (i 0).val / 512 := rfl
  refine ⟨t, flush4_3 t, ?_⟩
  rw [mem_block]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- THE OUTPUT ARRAY after the region is X·Wᵀ + B of the arrays the region finds. -/
theorem final (c : Dev nD) :
    (dat4 (F := Ideal) V c).arrAt 3 cfg4.N
      = lin (V c (Pipeline.arrRef spec4 0)) (V c (Pipeline.arrRef spec4 1)) (V c (Pipeline.arrRef spec4 2)) :=
  (dat4 (F := Ideal) V c).arrAt_eq_of_cover 3 _ (fun t _ => flushed_eq V c t) covered

end Cert.Mha.Lin4

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.Rowwise.lean ====
/-
  A softmax along the rows of a 512 × 2048 block of scores, read at an entry.

  For a block S of extended reals the body forms, row by row, the maximum of the row (a fold of max from −∞), kept as a
  column and spread back over the row; the exponentials E = exp(S − maximum); their row sums, again kept as a column and
  spread back; and the quotient E / sum. At entry (r, k) this is
      exp(S(r,k) − max_k' S(r,k')) / Σ_k' exp(S(r,k') − max_k'' S(r,k'')).
  The only facts used are that a reduction over the second axis reads the row, that a vector kept as a column reads its
  entry, and that a column spread over a row reads the column.
-/
import Idealize.ShloMosaic.PureOps.Ideal.Laws
import Idealize.ShloMosaic.Lib.ValueLayout
import proofs.«158408_j34445637714311_2_alg».proof.Proof.LibMergedAxes

noncomputable section

namespace Cert.Mha.Rowwise

open Idealize.ShloMosaic Idealize.ShloMosaic.ValueIdx

abbrev Blk : Shape := ⟨2, ![512, 2048]⟩
abbrev Vec1 : Shape := ⟨1, ![512]⟩
abbrev Col : Shape := ⟨2, ![512, 1]⟩

/-- The reduced index r with the column k put back is (r, k). -/
theorem lift_row (h : Blk.Reduces [1] Vec1) (r : Fin 512) (k : Fin (Blk.size 1)) :
    h.lift (ix1 r) k = ix2 r (⟨k.val, k.isLt⟩ : Fin 2048) := by
  funext c; apply Fin.ext
  fin_cases c <;> rfl

/-- A row's maximum, kept as a column and spread over the row, read at (r, k): the fold of max from −∞ over the row. -/
theorem rowMax_spread (S : FVec Ideal Blk .f32) (hr : Blk.Reduces [1] Vec1) (hφ : FKind.Formats .f32)
    (hacc : (0xFF800000#32 : BitVec 32) = FKind.maximumf.neutral .f32 hφ) (hc : Vec1.ShapeCasts Col) (hb : Col.Broadcasts Blk)
    (r : Fin 512) (k : Fin 2048) :
    broadcastTo Blk (shapeCast Col (multiReduction .maximumf [1] Vec1 S 0xFF800000#32 hr hφ hacc) hc) hb (ix2 r k)
      = (Finset.univ : Finset (Fin 2048)).fold max (Ideal.ofBits .f32 0xFF800000#32) (fun k' => S (ix2 r k')) := by
  refine (Cert.LibMergedAxes.broadcastTo_a1_ab_apply _ hb r k).trans ?_
  refine (Cert.LibMergedAxes.shapeCast_a_a1_apply _ hc r (0 : Fin 1)).trans ?_
  refine (Ideal.multiReduction_maximumf_single S _ hr hφ hacc (ix1 r)).trans ?_
  have hf : (S ∘ hr.lift (ix1 r)) = fun k' : Fin 2048 => S (ix2 r k') :=
    funext fun k' => congrArg S (lift_row hr r k')
  exact congrArg (fun f => Finset.fold max (Ideal.ofBits .f32 0xFF800000#32) f (Finset.univ : Finset (Fin 2048))) hf

/-- A row's sum, kept as a column and spread over the row, read at (r, k): the sum over the row. -/
theorem rowSum_spread (E : FVec Ideal Blk .f32) (hr : Blk.Reduces [1] Vec1) (hφ : FKind.Formats .f32)
    (hacc : (0x00000000#32 : BitVec 32) = FKind.add.neutral .f32 hφ) (hc : Vec1.ShapeCasts Col) (hb : Col.Broadcasts Blk)
    (r : Fin 512) (k : Fin 2048) :
    broadcastTo Blk (shapeCast Col (multiReduction .add [1] Vec1 E 0x00000000#32 hr hφ hacc) hc) hb (ix2 r k)
      = ∑ k' : Fin 2048, E (ix2 r k') := by
  refine (Cert.LibMergedAxes.broadcastTo_a1_ab_apply _ hb r k).trans ?_
  refine (Cert.LibMergedAxes.shapeCast_a_a1_apply _ hc r (0 : Fin 1)).trans ?_
  refine (Ideal.multiReduction_add_single E _ hr hφ hacc (ix1 r)).trans ?_
  exact Finset.sum_congr rfl fun k' _ => congrArg E (lift_row hr r k')

/-- The softmax of a block along its rows, as the body spells it. -/
def softmaxRows (S : FVec Ideal Blk .f32) (hr : Blk.Reduces [1] Vec1) (hφ : FKind.Formats .f32)
    (hmax : (0xFF800000#32 : BitVec 32) = FKind.maximumf.neutral .f32 hφ)
    (hadd : (0x00000000#32 : BitVec 32) = FKind.add.neutral .f32 hφ) (hc : Vec1.ShapeCasts Col) (hb : Col.Broadcasts Blk) :
    FVec Ideal Blk .f32 :=
  divf (exp (subf S (broadcastTo Blk (shapeCast Col (multiReduction .maximumf [1] Vec1 S 0xFF800000#32 hr hφ hmax) hc) hb)))
    (broadcastTo Blk (shapeCast Col (multiReduction .add [1] Vec1
      (exp (subf S (broadcastTo Blk (shapeCast Col (multiReduction .maximumf [1] Vec1 S 0xFF800000#32 hr hφ hmax) hc) hb)))
      0x00000000#32 hr hφ hadd) hc) hb)

/-- Entry (r, k) of the row softmax: exp(S(r,k) − max) / Σ_k' exp(S(r,k') − max). -/
theorem softmaxRows_apply (S : FVec Ideal Blk .f32) (hr : Blk.Reduces [1] Vec1) (hφ : FKind.Formats .f32)
    (hmax : (0xFF800000#32 : BitVec 32) = FKind.maximumf.neutral .f32 hφ)
    (hadd : (0x00000000#32 : BitVec 32) = FKind.add.neutral .f32 hφ) (hc : Vec1.ShapeCasts Col) (hb : Col.Broadcasts Blk)
    (r : Fin 512) (k : Fin 2048) :
    softmaxRows S hr hφ hmax hadd hc hb (ix2 r k)
      = Ideal.div
          (Ideal.exp (S (ix2 r k) - (Finset.univ : Finset (Fin 2048)).fold max (Ideal.ofBits .f32 0xFF800000#32) (fun k' => S (ix2 r k'))))
          (∑ k' : Fin 2048, Ideal.exp (S (ix2 r k') - (Finset.univ : Finset (Fin 2048)).fold max (Ideal.ofBits .f32 0xFF800000#32) (fun k'' => S (ix2 r k'')))) := by
  have hE : ∀ k' : Fin 2048,
      exp (subf S (broadcastTo Blk (shapeCast Col (multiReduction .maximumf [1] Vec1 S 0xFF800000#32 hr hφ hmax) hc) hb)) (ix2 r k')
        = Ideal.exp (S (ix2 r k') - (Finset.univ : Finset (Fin 2048)).fold max (Ideal.ofBits .f32 0xFF800000#32) (fun k'' => S (ix2 r k''))) := by
    intro k'
    show Ideal.exp (S (ix2 r k') - broadcastTo Blk (shapeCast Col (multiReduction .maximumf [1] Vec1 S 0xFF800000#32 hr hφ hmax) hc) hb (ix2 r k')) = _
    rw [rowMax_spread S hr hφ hmax hc hb r k']
  show Ideal.div (exp (subf S (broadcastTo Blk (shapeCast Col (multiReduction .maximumf [1] Vec1 S 0xFF800000#32 hr hφ hmax) hc) hb)) (ix2 r k))
      (broadcastTo Blk (shapeCast Col (multiReduction .add [1] Vec1
        (exp (subf S (broadcastTo Blk (shapeCast Col (multiReduction .maximumf [1] Vec1 S 0xFF800000#32 hr hφ hmax) hc) hb)))
        0x00000000#32 hr hφ hadd) hc) hb (ix2 r k)) = _
  rw [rowSum_spread _ hr hφ hadd hc hb r k, hE k]
  exact congrArg _ (Finset.sum_congr rfl fun k' _ => hE k')

end Cert.Mha.Rowwise

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibLeadingUnits.lean ====
/-
  Shape casts that drop or add two leading axes of extent one, read at an index written by coordinates.

  A shape cast keeps the row-major position of every element, and a coordinate on an axis of extent one is zero, so
  an array [1, 1, a, b] cast to [a, b] reads (i, j) at (u, v, i, j), and an array [a, b] cast to [1, 1, a, b] reads
  (u, v, i, j) at (i, j), whatever the unit coordinates u and v.
-/
import Idealize.ShloMosaic.Lib.ValueLayout

namespace Cert.LibLeadingUnits

open Idealize.ShloMosaic Idealize.ShloMosaic.ValueIdx

variable {α : Type}

/-- A [1, 1, a, b] array cast to [a, b] reads, at (i, j), the operand at (u, v, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (u v : Fin 1) (i : Fin a) (j : Fin b) :
    shapeCast ⟨2, ![a, b]⟩ x h (ix2 i j) = x (ix4 u v i j) :=
  shapeCast_apply x h _ _ (by
    have hu : u.val = 0 := by omega
    have hv : v.val = 0 := by omega
    rw [Shape.rowMajor_val_four, Shape.rowMajor_val_two]
    show ((u.val * 1 + v.val) * a + i.val) * b + j.val = i.val * b + j.val
    simp [hu, hv])

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp [hu, hv])

end Cert.LibLeadingUnits
-- ==== Proof.AttnBody.lean ====
/-
  The attention body at one grid point, entry by entry.

  The body loads a [1,1,512,64] block of queries, the [1,1,2048,64] keys and values of one (batch, head) and the
  [1,512,2048] rows of the mask. Its scores are  (Σ_d q(r,d)·k(c,d))·⅛, replaced by −10⁹ where the mask is 0; its
  weights are the softmax of the scores along each row; it stores the weights, and the product of the weights with the
  values,  Σ_c weight(r,c)·v(c,d).  Format changes are the identity on the extended reals, the two matrix products into
  a zero accumulator are plain sums, and the leading unit axes of a block only rename an entry.
-/
import proofs.«158408_j34445637714311_2_alg».proof.Proof.Spec
import proofs.«158408_j34445637714311_2_alg».proof.Proof.Rowwise
import proofs.«158408_j34445637714311_2_alg».proof.Proof.LibPlainMatmul
import proofs.«158408_j34445637714311_2_alg».proof.Proof.LibLeadingUnits
import proofs.«158408_j34445637714311_2_alg».proof.Proof.Gen.KernelIdeal.Skeleton
import Idealize.ShloMosaic.Lib.ValueLayout
import Idealize.ShloMosaic.Lib.Pipeline.Value

noncomputable section

namespace Cert.Mha.Body

open Idealize.ShloMosaic Idealize.ShloMosaic.ValueIdx Cert.KernelIdeal Cert.KernelIdeal.Gen Cert.Mha

/-- The block's masked, scaled scores, as the body spells them. -/
def scoreBlock (v0 : Vec Ideal S1x1x512x64 .f32) (v2 : Vec Ideal S1x1x2048x64 .f32) (v6 : Vec Ideal S1x512x2048 .i32) :
    FVec Ideal S512x2048 .f32 :=
  select (cmpi .eq (shapeCast S512x2048 v6 shapeCasts_S1x512x2048_S512x2048) (broadcast S512x2048 0#32))
    (broadcast S512x2048 (Scalar.ofBits (F := Ideal) .f32 0xCE6E6B28#32))
    (mulf (matmul (F := Ideal) dot_S512x64_S64x2048_S512x2048_1_0_0_1_n_n none
        (truncf .bf16 (shapeCast S512x64 v0 shapeCasts_S1x1x512x64_S512x64) bitsLt_bf16_f32)
        (transpose S64x2048 [1, 0] (truncf .bf16 (shapeCast S2048x64 v2 shapeCasts_S1x1x2048x64_S2048x64) bitsLt_bf16_f32)
          transposes_S2048x64_p1_0_S64x2048)
        (constant (F := Ideal) S512x2048 .f32 0x00000000#32))
      (broadcast S512x2048 (Scalar.ofBits (F := Ideal) .f32 0x3E000000#32)))

/-- The stored weights are the row softmax of the scores. -/
theorem pay3_eq (v0 : Vec Ideal S1x1x512x64 .f32) (v2 : Vec Ideal S1x1x2048x64 .f32) (v6 : Vec Ideal S1x512x2048 .i32) :
    k3_pay3 (F := Ideal) v0 v2 v6
      = Rowwise.softmaxRows (scoreBlock v0 v2 v6) reduces_S512x2048_S512 (.inl rfl) rfl rfl shapeCasts_S512_S512x1
          broadcasts_S512x1_S512x2048 := rfl

/-- One score: the dot product of query row r with key row c, times ⅛, or −10⁹ where the mask is 0. -/
theorem scoreBlock_apply (v0 : Vec Ideal S1x1x512x64 .f32) (v2 : Vec Ideal S1x1x2048x64 .f32) (v6 : Vec Ideal S1x512x2048 .i32)
    (r : Fin 512) (c : Fin 2048) :
    scoreBlock v0 v2 v6 (ix2 r c)
      = Scalar.select (IntOp.cmpi .eq (v6 (ix3 (0 : Fin 1) r c)) 0#32) negBig
          ((∑ d : Fin 64, v0 (ix4 (0 : Fin 1) (0 : Fin 1) r d) * v2 (ix4 (0 : Fin 1) (0 : Fin 1) c d)) * eighth) := by
  show Scalar.select (IntOp.cmpi .eq (shapeCast S512x2048 v6 shapeCasts_S1x512x2048_S512x2048 (ix2 r c)) 0#32)
      (Ideal.ofBits .f32 0xCE6E6B28#32)
      (matmul (F := Ideal) dot_S512x64_S64x2048_S512x2048_1_0_0_1_n_n none
        (truncf .bf16 (shapeCast S512x64 v0 shapeCasts_S1x1x512x64_S512x64) bitsLt_bf16_f32)
        (transpose S64x2048 [1, 0] (truncf .bf16 (shapeCast S2048x64 v2 shapeCasts_S1x1x2048x64_S2048x64) bitsLt_bf16_f32)
          transposes_S2048x64_p1_0_S64x2048)
        (constant (F := Ideal) S512x2048 .f32 0x00000000#32) (ix2 r c) * Ideal.ofBits .f32 0x3E000000#32) = _
  rw [shapeCast_1ab_ab_apply v6 shapeCasts_S1x512x2048_S512x2048 r c]
  have hm := PlainMatmul.apply_zero (M := 512) (K := 64) (N := 2048)
    (truncf .bf16 (shapeCast S512x64 v0 shapeCasts_S1x1x512x64_S512x64) bitsLt_bf16_f32)
    (transpose S64x2048 [1, 0] (truncf .bf16 (shapeCast S2048x64 v2 shapeCasts_S1x1x2048x64_S2048x64) bitsLt_bf16_f32)
          transposes_S2048x64_p1_0_S64x2048) r c
  refine congrArg (fun z => Scalar.select (IntOp.cmpi .eq (v6 (ix3 (0 : Fin 1) r c)) 0#32) negBig (z * eighth)) (hm.trans ?_)
  refine Finset.sum_congr rfl fun d _ => ?_
  have e1 : (truncf .bf16 (shapeCast S512x64 v0 shapeCasts_S1x1x512x64_S512x64) bitsLt_bf16_f32 : FVec Ideal S512x64 .bf16) (ix2 r d)
      = v0 (ix4 (0 : Fin 1) (0 : Fin 1) r d) :=
    Cert.LibLeadingUnits.shapeCast_11ab_ab_apply v0 shapeCasts_S1x1x512x64_S512x64 0 0 r d
  have e2 : (transpose S64x2048 [1, 0] (truncf .bf16 (shapeCast S2048x64 v2 shapeCasts_S1x1x2048x64_S2048x64) bitsLt_bf16_f32)
          transposes_S2048x64_p1_0_S64x2048 : FVec Ideal S64x2048 .bf16) (ix2 d c) = v2 (ix4 (0 : Fin 1) (0 : Fin 1) c d) :=
    (transpose_ix2_apply _ transposes_S2048x64_p1_0_S64x2048 d c).trans
      (Cert.LibLeadingUnits.shapeCast_11ab_ab_apply v2 shapeCasts_S1x1x2048x64_S2048x64 0 0 c d)
  rw [e1, e2]

/-- One stored weight, when the block's queries, keys and mask rows are those of batch b, head h and the query rows
    `row r` of whole arrays Q, K, M: the specification's weight. -/
theorem pay3_apply (v0 : Vec Ideal S1x1x512x64 .f32) (v2 : Vec Ideal S1x1x2048x64 .f32) (v6 : Vec Ideal S1x512x2048 .i32)
    (Q K : Heads) (M : Mask) (b : Fin 2) (h : Fin 16) (row : Fin 512 → Fin 2048)
    (h0 : ∀ (r : Fin 512) (d : Fin 64), v0 (ix4 (0 : Fin 1) (0 : Fin 1) r d) = Q (ix4 b h (row r) d))
    (h2 : ∀ (c : Fin 2048) (d : Fin 64), v2 (ix4 (0 : Fin 1) (0 : Fin 1) c d) = K (ix4 b h c d))
    (h6 : ∀ (r : Fin 512) (c : Fin 2048), v6 (ix3 (0 : Fin 1) r c) = M (ix3 b (row r) c))
    (r : Fin 512) (c : Fin 2048) :
    k3_pay3 (F := Ideal) v0 v2 v6 (ix2 r c) = prob Q K M b h (row r) c := by
  have hs : ∀ c' : Fin 2048, scoreBlock v0 v2 v6 (ix2 r c') = score Q K M b h (row r) c' := by
    intro c'
    rw [scoreBlock_apply, h6]
    unfold score
    refine congrArg (fun z => Scalar.select (IntOp.cmpi .eq (M (ix3 b (row r) c')) 0#32) negBig (z * eighth)) ?_
    exact Finset.sum_congr rfl fun d _ => by rw [h0, h2]
  refine ((congrFun (pay3_eq v0 v2 v6) (ix2 r c)).trans
    (Rowwise.softmaxRows_apply (scoreBlock v0 v2 v6) reduces_S512x2048_S512 (.inl rfl) rfl rfl shapeCasts_S512_S512x1
      broadcasts_S512x1_S512x2048 r c)).trans ?_
  unfold prob expo denom rowMax expo rowMax
  simp only [hs]
  rfl

/-- The weights are stored with two leading unit axes. -/
theorem pay4_apply (v0 : Vec Ideal S1x1x512x64 .f32) (v2 : Vec Ideal S1x1x2048x64 .f32) (v6 : Vec Ideal S1x512x2048 .i32)
    (u v : Fin 1) (r : Fin 512) (c : Fin 2048) :
    k3_pay4 (F := Ideal) v0 v2 v6 (ix4 u v r c) = k3_pay3 (F := Ideal) v0 v2 v6 (ix2 r c) :=
  Cert.LibLeadingUnits.shapeCast_ab_11ab_apply (k3_pay3 (F := Ideal) v0 v2 v6) shapeCasts_S512x2048_S1x1x512x2048 u v r c

/-- The attended values stored at (r, d): Σ_c weight(r,c)·v(c,d). -/
theorem pay1_apply (v0 : Vec Ideal S1x1x512x64 .f32) (v2 v4 : Vec Ideal S1x1x2048x64 .f32) (v6 : Vec Ideal S1x512x2048 .i32)
    (u v : Fin 1) (r : Fin 512) (d : Fin 64) :
    k3_pay1 (F := Ideal) (k3_pay2 (F := Ideal) v4) (k3_pay5 (F := Ideal) v0 v2 v6) (ix4 u v r d)
      = ∑ c : Fin 2048, k3_pay3 (F := Ideal) v0 v2 v6 (ix2 r c) * v4 (ix4 (0 : Fin 1) (0 : Fin 1) c d) := by
  show shapeCast S1x1x512x64 (matmul (F := Ideal) dot_S512x2048_S2048x64_S512x64_1_0_0_1_n_n none
      (k3_pay5 (F := Ideal) v0 v2 v6) (truncf .bf16 (k3_pay2 (F := Ideal) v4) bitsLt_bf16_f32)
      (constant (F := Ideal) S512x64 .f32 0x00000000#32)) shapeCasts_S512x64_S1x1x512x64 (ix4 u v r d) = _
  refine (Cert.LibLeadingUnits.shapeCast_ab_11ab_apply _ shapeCasts_S512x64_S1x1x512x64 u v r d).trans ?_
  have hm := PlainMatmul.apply_zero (M := 512) (K := 2048) (N := 64)
    (k3_pay5 (F := Ideal) v0 v2 v6)
    (truncf .bf16 (k3_pay2 (F := Ideal) v4) bitsLt_bf16_f32) r d
  refine hm.trans ?_
  refine Finset.sum_congr rfl fun c _ => ?_
  have e2 : (truncf .bf16 (k3_pay2 (F := Ideal) v4) bitsLt_bf16_f32 : FVec Ideal S2048x64 .bf16) (ix2 c d)
      = v4 (ix4 (0 : Fin 1) (0 : Fin 1) c d) :=
    Cert.LibLeadingUnits.shapeCast_11ab_ab_apply v4 shapeCasts_S1x1x2048x64_S2048x64 0 0 c d
  rw [e2]
  rfl

end Cert.Mha.Body

end
-- ==== Proof.AttnRegion.lean ====
/-
  What the attention region leaves in its two output arrays.

  The region walks 2 · 4 · 16 grid points (batch b, query tile i, head h). At a point it reads the query rows
  512·i … 512·i + 511 of (b, h), all 2048 key rows and value rows of (b, h), and the mask rows 512·i … 512·i + 511 of
  batch b; it stores the attention weights of those query rows against every key, and their product with the values.
  So block (b, h, i) of the weights array is that block of the specification's weights, block (b, h, i) of the output
  array that block of the attended values; the blocks of the 128 points cover both arrays.
-/
import proofs.«158408_j34445637714311_2_alg».proof.Proof.Spec
import proofs.«158408_j34445637714311_2_alg».proof.Proof.AttnBody
import proofs.«158408_j34445637714311_2_alg».proof.Proof.Gen.KernelIdeal.Frame
import Idealize.ShloMosaic.Lib.Pipeline.Value
import Idealize.ShloMosaic.Lib.ValueLayout

set_option maxRecDepth 16384

noncomputable section

namespace Cert.Mha.Attn

open Cert.KernelIdeal Cert.KernelIdeal.Gen Idealize.ShloMosaic Idealize.ShloMosaic.TcCoe Idealize.SL.Sem
open Idealize.ShloMosaic.ValueIdx Cert.Mha
open Idealize.ShloMosaic.Pipeline (Dat)

/-- The offset of every whole-buffer access is zero on every axis. -/
theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-! ## The blocks' places in their arrays -/

/-- The index maps over the 128 grid points, relative to the weights' block index (b, h, i, 0): the output's and the
    queries' are the same; the keys' and the values' are (b, h, 0, 0); the mask's is (b, i, 0). -/
theorem block_indices : ∀ t : Fin cfg3.N,
    win3_5.index t (0 : Fin 4) < 2 ∧ win3_5.index t (1 : Fin 4) < 16 ∧ win3_5.index t (2 : Fin 4) < 4 ∧ win3_5.index t (3 : Fin 4) = 0
    ∧ win3_4.index t (0 : Fin 4) = win3_5.index t (0 : Fin 4) ∧ win3_4.index t (1 : Fin 4) = win3_5.index t (1 : Fin 4) ∧ win3_4.index t (2 : Fin 4) = win3_5.index t (2 : Fin 4) ∧ win3_4.index t (3 : Fin 4) = 0
    ∧ win3_0.index t (0 : Fin 4) = win3_5.index t (0 : Fin 4) ∧ win3_0.index t (1 : Fin 4) = win3_5.index t (1 : Fin 4) ∧ win3_0.index t (2 : Fin 4) = win3_5.index t (2 : Fin 4) ∧ win3_0.index t (3 : Fin 4) = 0
    ∧ win3_1.index t (0 : Fin 4) = win3_5.index t (0 : Fin 4) ∧ win3_1.index t (1 : Fin 4) = win3_5.index t (1 : Fin 4) ∧ win3_1.index t (2 : Fin 4) = 0 ∧ win3_1.index t (3 : Fin 4) = 0
    ∧ win3_2.index t (0 : Fin 4) = win3_5.index t (0 : Fin 4) ∧ win3_2.index t (1 : Fin 4) = win3_5.index t (1 : Fin 4) ∧ win3_2.index t (2 : Fin 4) = 0 ∧ win3_2.index t (3 : Fin 4) = 0
    ∧ win3_3.index t (0 : Fin 3) = win3_5.index t (0 : Fin 4) ∧ win3_3.index t (1 : Fin 3) = win3_5.index t (2 : Fin 4) ∧ win3_3.index t (2 : Fin 3) = 0 :=
  (by decide +kernel : ∀ t : Fin grid3.N, _)

/-- Every block (b, h, i) of the two output arrays is some point's. -/
theorem block_onto : ∀ (b : Fin 2) (h : Fin 16) (i : Fin 4), ∃ t : Fin cfg3.N,
    win3_5.index t = ![b.val, h.val, i.val, 0] ∧ win3_4.index t = ![b.val, h.val, i.val, 0] :=
  (by decide +kernel : ∀ (b : Fin 2) (h : Fin 16) (i : Fin 4), ∃ t : Fin grid3.N,
    win3_5.index t = ![b.val, h.val, i.val, 0] ∧ win3_4.index t = ![b.val, h.val, i.val, 0])

variable (V : (c : Dev nD) → (b : Ref sig .tc) → Buf (Elt Ideal) ((c : Thread nD τ).loc b))

/-! ## One stored weight -/

/-- The weight the body computes at row r, key k of point t's block is the specification's weight at batch b, head h,
    query q = 512·i + r, for the arrays the region finds. -/
theorem weight_entry (c : Dev nD) (t : Fin cfg3.N) (r : Fin 512) (k : Fin 2048) (b : Fin 2) (h : Fin 16) (q : Fin 2048)
    (hb : b.val = win3_5.index t (0 : Fin 4)) (hh : h.val = win3_5.index t (1 : Fin 4)) (hq : q.val = win3_5.index t (2 : Fin 4) * 512 + r.val) :
    k3_pay3 (F := Ideal) (iblk3 V c 0 t) (iblk3 V c 1 t) (iblk3 V c 3 t) (ix2 r k)
      = prob (V c (Pipeline.arrRef spec3 0)) (V c (Pipeline.arrRef spec3 1)) (V c (Pipeline.arrRef spec3 3)) b h q k := by
  obtain ⟨l0, l1, l2, l3, o0, o1, o2, o3, q0, q1, q2, q3, k0, k1, k2, k3, v0, v1, v2, v3, m0, m1, m2⟩ := block_indices t
  let row : Fin 512 → Fin 2048 := fun r' => ⟨win3_5.index t (2 : Fin 4) * 512 + r'.val, by have := r'.isLt; omega⟩
  have hrow : row r = q := Fin.ext hq.symm
  rw [← hrow]
  refine Body.pay3_apply (iblk3 V c 0 t) (iblk3 V c 1 t) (iblk3 V c 3 t) _ _ _ b h row (fun r' d => ?_) (fun k' d => ?_) (fun r' k' => ?_) r k
  · show V c (Pipeline.arrRef spec3 0) (((cfg3.win 0).blk t).view.emb (ix4 (0 : Fin 1) (0 : Fin 1) r' d)) = _
    refine congrArg _ ?_
    funext a; apply Fin.ext
    match a with
    | ⟨0, _⟩ => show win3_0.index t (0 : Fin 4) * 1 + 1 * (0 : Fin 1).val = b.val; omega
    | ⟨1, _⟩ => show win3_0.index t (1 : Fin 4) * 1 + 1 * (0 : Fin 1).val = h.val; omega
    | ⟨2, _⟩ => show win3_0.index t (2 : Fin 4) * 512 + 1 * r'.val = win3_5.index t (2 : Fin 4) * 512 + r'.val; omega
    | ⟨3, _⟩ => show win3_0.index t (3 : Fin 4) * 64 + 1 * d.val = d.val; omega
  · show V c (Pipeline.arrRef spec3 1) (((cfg3.win 1).blk t).view.emb (ix4 (0 : Fin 1) (0 : Fin 1) k' d)) = _
    refine congrArg _ ?_
    funext a; apply Fin.ext
    match a with
    | ⟨0, _⟩ => show win3_1.index t (0 : Fin 4) * 1 + 1 * (0 : Fin 1).val = b.val; omega
    | ⟨1, _⟩ => show win3_1.index t (1 : Fin 4) * 1 + 1 * (0 : Fin 1).val = h.val; omega
    | ⟨2, _⟩ => show win3_1.index t (2 : Fin 4) * 2048 + 1 * k'.val = k'.val; omega
    | ⟨3, _⟩ => show win3_1.index t (3 : Fin 4) * 64 + 1 * d.val = d.val; omega
  · show V c (Pipeline.arrRef spec3 3) (((cfg3.win 3).blk t).view.emb (ix3 (0 : Fin 1) r' k')) = _
    refine congrArg _ ?_
    funext a; apply Fin.ext
    match a with
    | ⟨0, _⟩ => show win3_3.index t (0 : Fin 3) * 1 + 1 * (0 : Fin 1).val = b.val; omega
    | ⟨1, _⟩ => show win3_3.index t (1 : Fin 3) * 512 + 1 * r'.val = win3_5.index t (2 : Fin 4) * 512 + r'.val; omega
    | ⟨2, _⟩ => show win3_3.index t (2 : Fin 3) * 2048 + 1 * k'.val = k'.val; omega

/-! ## What a point writes back -/

/-- Point t writes back block (b, h, i) of the specification's weights. -/
theorem flushed_weights (c : Dev nD) (t : Fin cfg3.N) :
    (dat3 (F := Ideal) V c).flushed 5 t
      = ((cfg3.win 5).blk t).view.read (Elt Ideal)
          (probs (V c (Pipeline.arrRef spec3 0)) (V c (Pipeline.arrRef spec3 1)) (V c (Pipeline.arrRef spec3 3))) := by
  show (cfg3.win 5).cut (grid3.coords t) ((dat3 (F := Ideal) V c).after 5 t) = _
  rw [after3_5]
  unfold out3_5
  rw [View.canon_unit_zero zero4]
  simp only [View.ld_unit_zero (S := S1x1x512x64) zero4, View.ld_unit_zero (S := S1x1x2048x64) zero4,
    View.ld_unit_zero (S := S1x512x2048) zero3]
  obtain ⟨l0, l1, l2, l3, -⟩ := block_indices t
  funext j
  obtain ⟨u, v, r, k, rfl⟩ : ∃ (u v : Fin 1) (r : Fin 512) (k : Fin 2048), j = ix4 u v r k := ⟨j 0, j 1, j 2, j 3, eq_ix4 j⟩
  have hout : ((cfg3.win 5).blk t).view.emb (ix4 u v r k)
      = ix4 (⟨win3_5.index t (0 : Fin 4), l0⟩ : Fin 2) (⟨win3_5.index t (1 : Fin 4), l1⟩ : Fin 16)
          (⟨win3_5.index t (2 : Fin 4) * 512 + r.val, by have := r.isLt; omega⟩ : Fin 2048) k := by
    funext a; apply Fin.ext
    match a with
    | ⟨0, _⟩ => show win3_5.index t (0 : Fin 4) * 1 + 1 * u.val = win3_5.index t (0 : Fin 4); have := u.isLt; omega
    | ⟨1, _⟩ => show win3_5.index t (1 : Fin 4) * 1 + 1 * v.val = win3_5.index t (1 : Fin 4); have := v.isLt; omega
    | ⟨2, _⟩ => show win3_5.index t (2 : Fin 4) * 512 + 1 * r.val = win3_5.index t (2 : Fin 4) * 512 + r.val; omega
    | ⟨3, _⟩ => show win3_5.index t (3 : Fin 4) * 2048 + 1 * k.val = k.val; omega
  show k3_pay4 (F := Ideal) (iblk3 V c 0 t) (iblk3 V c 1 t) (iblk3 V c 3 t) (ix4 u v r k)
    = probs (V c (Pipeline.arrRef spec3 0)) (V c (Pipeline.arrRef spec3 1)) (V c (Pipeline.arrRef spec3 3))
        (((cfg3.win 5).blk t).view.emb (ix4 u v r k))
  rw [hout, probs_ix4]
  refine (Body.pay4_apply (iblk3 V c 0 t) (iblk3 V c 1 t) (iblk3 V c 3 t) u v r k).trans ?_
  exact weight_entry V c t r k _ _ _ rfl rfl rfl

/-- Point t writes back block (b, h, i) of the specification's attended values. -/
theorem flushed_values (c : Dev nD) (t : Fin cfg3.N) :
    (dat3 (F := Ideal) V c).flushed 4 t
      = ((cfg3.win 4).blk t).view.read (Elt Ideal)
          (attend (V c (Pipeline.arrRef spec3 0)) (V c (Pipeline.arrRef spec3 1)) (V c (Pipeline.arrRef spec3 2))
            (V c (Pipeline.arrRef spec3 3))) := by
  show (cfg3.win 4).cut (grid3.coords t) ((dat3 (F := Ideal) V c).after 4 t) = _
  rw [after3_4]
  unfold out3_4
  rw [View.canon_unit_zero zero4]
  simp only [View.ld_unit_zero (S := S1x1x512x64) zero4, View.ld_unit_zero (S := S1x1x2048x64) zero4,
    View.ld_unit_zero (S := S1x512x2048) zero3]
  obtain ⟨l0, l1, l2, l3, o0, o1, o2, o3, q0, q1, q2, q3, k0, k1, k2, k3, v0, v1, v2, v3, m0, m1, m2⟩ := block_indices t
  funext j
  obtain ⟨u, v, r, d, rfl⟩ : ∃ (u v : Fin 1) (r : Fin 512) (d : Fin 64), j = ix4 u v r d := ⟨j 0, j 1, j 2, j 3, eq_ix4 j⟩
  have hout : ((cfg3.win 4).blk t).view.emb (ix4 u v r d)
      = ix4 (⟨win3_5.index t (0 : Fin 4), l0⟩ : Fin 2) (⟨win3_5.index t (1 : Fin 4), l1⟩ : Fin 16)
          (⟨win3_5.index t (2 : Fin 4) * 512 + r.val, by have := r.isLt; omega⟩ : Fin 2048) d := by
    funext a; apply Fin.ext
    match a with
    | ⟨0, _⟩ => show win3_4.index t (0 : Fin 4) * 1 + 1 * u.val = win3_5.index t (0 : Fin 4); have := u.isLt; omega
    | ⟨1, _⟩ => show win3_4.index t (1 : Fin 4) * 1 + 1 * v.val = win3_5.index t (1 : Fin 4); have := v.isLt; omega
    | ⟨2, _⟩ => show win3_4.index t (2 : Fin 4) * 512 + 1 * r.val = win3_5.index t (2 : Fin 4) * 512 + r.val; omega
    | ⟨3, _⟩ => show win3_4.index t (3 : Fin 4) * 64 + 1 * d.val = d.val; omega
  show k3_pay1 (F := Ideal) (k3_pay2 (F := Ideal) (iblk3 V c 2 t)) (k3_pay5 (F := Ideal) (iblk3 V c 0 t) (iblk3 V c 1 t) (iblk3 V c 3 t)) (ix4 u v r d)
    = attend (V c (Pipeline.arrRef spec3 0)) (V c (Pipeline.arrRef spec3 1)) (V c (Pipeline.arrRef spec3 2)) (V c (Pipeline.arrRef spec3 3))
        (((cfg3.win 4).blk t).view.emb (ix4 u v r d))
  rw [hout, attend_ix4]
  refine (Body.pay1_apply (iblk3 V c 0 t) (iblk3 V c 1 t) (iblk3 V c 2 t) (iblk3 V c 3 t) u v r d).trans ?_
  unfold attendAt
  refine Finset.sum_congr rfl fun k _ => ?_
  refine congrArg₂ (· * ·) (weight_entry V c t r k _ _ _ rfl rfl rfl) ?_
  show V c (Pipeline.arrRef spec3 2) (((cfg3.win 2).blk t).view.emb (ix4 (0 : Fin 1) (0 : Fin 1) k d)) = _
  refine congrArg _ ?_
  funext a; apply Fin.ext
  match a with
  | ⟨0, _⟩ => show win3_2.index t (0 : Fin 4) * 1 + 1 * (0 : Fin 1).val = win3_5.index t (0 : Fin 4); omega
  | ⟨1, _⟩ => show win3_2.index t (1 : Fin 4) * 1 + 1 * (0 : Fin 1).val = win3_5.index t (1 : Fin 4); omega
  | ⟨2, _⟩ => show win3_2.index t (2 : Fin 4) * 2048 + 1 * k.val = k.val; omega
  | ⟨3, _⟩ => show win3_2.index t (3 : Fin 4) * 64 + 1 * d.val = d.val; omega

/-! ## The blocks cover both arrays -/

theorem mem_block_weights (t : Fin cfg3.N) (i : S2x16x2048x2048.Idx) :
    i ∈ ((cfg3.win 5).blk t).view.set ↔ ∀ a : Fin 4, win3_5.index t a * S1x1x512x2048.size a ≤ (i a).val ∧ (i a).val < win3_5.index t a * S1x1x512x2048.size a + S1x1x512x2048.size a := by
  show i ∈ ((View.whole main_v18_1).slice (win3_5.rect t)).set ↔ _
  rw [View.set_slice_whole, Rect.mem_set_unit]
  exact Iff.rfl

theorem mem_block_values (t : Fin cfg3.N) (i : S2x16x2048x64.Idx) :
    i ∈ ((cfg3.win 4).blk t).view.set ↔ ∀ a : Fin 4, win3_4.index t a * S1x1x512x64.size a ≤ (i a).val ∧ (i a).val < win3_4.index t a * S1x1x512x64.size a + S1x1x512x64.size a := by
  show i ∈ ((View.whole main_v18_0).slice (win3_4.rect t)).set ↔ _
  rw [View.set_slice_whole, Rect.mem_set_unit]
  exact Iff.rfl

/-- Entry (b, h, q, k) of the weights lies in the block of the point with block index (b, h, q / 512). -/
theorem covered_weights (i : S2x16x2048x2048.Idx) :
    ∃ t : Fin cfg3.N, (cfg3.win 5).flush t = true ∧ i ∈ ((cfg3.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht, -⟩ := block_onto ⟨(i 0).val, hi0⟩ ⟨(i 1).val, hi1⟩ ⟨(i 2).val / 512, by omega⟩
  have e0 : win3_5.index t (0 : Fin 4) = (i 0).val := congrFun ht 0
  have e1 : win3_5.index t (1 : Fin 4) = (i 1).val := congrFun ht 1
  have e2 : win3_5.index t (2 : Fin 4) = (i 2).val / 512 := congrFun ht 2
  have e3 : win3_5.index t (3 : Fin 4) = 0 := congrFun ht 3
  refine ⟨t, flush3_5 t, ?_⟩
  rw [mem_block_weights]
  intro a
  match a with
  | ⟨0, _⟩ => show win3_5.index t (0 : Fin 4) * 1 ≤ (i 0).val ∧ (i 0).val < win3_5.index t (0 : Fin 4) * 1 + 1; omega
  | ⟨1, _⟩ => show win3_5.index t (1 : Fin 4) * 1 ≤ (i 1).val ∧ (i 1).val < win3_5.index t (1 : Fin 4) * 1 + 1; omega
  | ⟨2, _⟩ => show win3_5.index t (2 : Fin 4) * 512 ≤ (i 2).val ∧ (i 2).val < win3_5.index t (2 : Fin 4) * 512 + 512; omega
  | ⟨3, _⟩ => show win3_5.index t (3 : Fin 4) * 2048 ≤ (i 3).val ∧ (i 3).val < win3_5.index t (3 : Fin 4) * 2048 + 2048; omega

/-- Entry (b, h, q, d) of the output lies in the block of the point with block index (b, h, q / 512). -/
theorem covered_values (i : S2x16x2048x64.Idx) :
    ∃ t : Fin cfg3.N, (cfg3.win 4).flush t = true ∧ i ∈ ((cfg3.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, -, ht⟩ := block_onto ⟨(i 0).val, hi0⟩ ⟨(i 1).val, hi1⟩ ⟨(i 2).val / 512, by omega⟩
  have e0 : win3_4.index t (0 : Fin 4) = (i 0).val := congrFun ht 0
  have e1 : win3_4.index t (1 : Fin 4) = (i 1).val := congrFun ht 1
  have e2 : win3_4.index t (2 : Fin 4) = (i 2).val / 512 := congrFun ht 2
  have e3 : win3_4.index t (3 : Fin 4) = 0 := congrFun ht 3
  refine ⟨t, flush3_4 t, ?_⟩
  rw [mem_block_values]
  intro a
  match a with
  | ⟨0, _⟩ => show win3_4.index t (0 : Fin 4) * 1 ≤ (i 0).val ∧ (i 0).val < win3_4.index t (0 : Fin 4) * 1 + 1; omega
  | ⟨1, _⟩ => show win3_4.index t (1 : Fin 4) * 1 ≤ (i 1).val ∧ (i 1).val < win3_4.index t (1 : Fin 4) * 1 + 1; omega
  | ⟨2, _⟩ => show win3_4.index t (2 : Fin 4) * 512 ≤ (i 2).val ∧ (i 2).val < win3_4.index t (2 : Fin 4) * 512 + 512; omega
  | ⟨3, _⟩ => show win3_4.index t (3 : Fin 4) * 64 ≤ (i 3).val ∧ (i 3).val < win3_4.index t (3 : Fin 4) * 64 + 64; omega

/-! ## The two arrays after the region -/

/-- The weights array after the region: the specification's weights of the arrays the region finds. -/
theorem final_weights (c : Dev nD) :
    (dat3 (F := Ideal) V c).arrAt 5 cfg3.N
      = probs (V c (Pipeline.arrRef spec3 0)) (V c (Pipeline.arrRef spec3 1)) (V c (Pipeline.arrRef spec3 3)) :=
  (dat3 (F := Ideal) V c).arrAt_eq_of_cover 5 _ (fun t _ => flushed_weights V c t) covered_weights

/-- The output array after the region: the specification's attended values of the arrays the region finds. -/
theorem final_values (c : Dev nD) :
    (dat3 (F := Ideal) V c).arrAt 4 cfg3.N
      = attend (V c (Pipeline.arrRef spec3 0)) (V c (Pipeline.arrRef spec3 1)) (V c (Pipeline.arrRef spec3 2))
          (V c (Pipeline.arrRef spec3 3)) :=
  (dat3 (F := Ideal) V c).arrAt_eq_of_cover 4 _ (fun t _ => flushed_values V c t) covered_values

end Cert.Mha.Attn

end
-- ==== Proof.KernelChain.lean ====
/-
  The idealized kernel's buffers, followed through @main.

  @main reshapes the three inputs to [4096, 1024] rows and each bias to a [1, 1024] row; three regions compute the
  projections X·Wᵀ + B; the projections are reshaped back, split into 16 heads and transposed to [2, 16, 2048, 64]; the
  attention region leaves the weights and the attended values; these are transposed back, merged and reshaped to rows;
  the last region computes the output projection, which is reshaped to [2, 2048, 1024]. A host operation changes only
  the buffer it writes and a region only its own arrays, so each buffer a region reads is found by walking back to the
  operation or region that wrote it; what each region leaves is the linear-layer and attention lemmas.
-/
import proofs.«158408_j34445637714311_2_alg».proof.Proof.Spec
import proofs.«158408_j34445637714311_2_alg».proof.Proof.Model
import proofs.«158408_j34445637714311_2_alg».proof.Proof.Gen.KernelIdeal.Frame
import proofs.«158408_j34445637714311_2_alg».proof.Proof.LinRegion0
import proofs.«158408_j34445637714311_2_alg».proof.Proof.LinRegion1
import proofs.«158408_j34445637714311_2_alg».proof.Proof.LinRegion2
import proofs.«158408_j34445637714311_2_alg».proof.Proof.LinRegion4
import proofs.«158408_j34445637714311_2_alg».proof.Proof.AttnRegion
import Idealize.ShloMosaic.Lib.StableHlo.Run

set_option maxRecDepth 16384

noncomputable section

namespace Cert.Mha.Chain

open Cert.KernelIdeal Cert.KernelIdeal.Gen Idealize.ShloMosaic Idealize.ShloMosaic.TcCoe Idealize.SL.Sem
open Idealize.ShloMosaic.StableHlo Cert.Mha

variable (m : (ℓ : Loc nD τ sig) → Buf (Elt Ideal) ℓ) (ρ : Dev nD → PrngReg) (c : Dev nD)

/-! ## The inputs as rows; region 0: the query projection -/

theorem at1_main_v0 : W1 m ρ c (Proc.devRef .tc main_v0) = (Model.rows (m ((c : Thread nD τ).loc main_arg0))) := by
  show StableHlo.after hostOps0 (W0 m ρ c) _ = _
  dsimp only [hostOps0]
  after_results
  all_goals rfl

theorem at1_main_v1 : W1 m ρ c (Proc.devRef .tc main_v1) = (Model.rows (m ((c : Thread nD τ).loc main_arg1))) := by
  show StableHlo.after hostOps0 (W0 m ρ c) _ = _
  dsimp only [hostOps0]
  after_results
  all_goals rfl

theorem at1_main_v2 : W1 m ρ c (Proc.devRef .tc main_v2) = (Model.rows (m ((c : Thread nD τ).loc main_arg2))) := by
  show StableHlo.after hostOps0 (W0 m ρ c) _ = _
  dsimp only [hostOps0]
  after_results
  all_goals rfl

theorem at1_main_v3 : W1 m ρ c (Proc.devRef .tc main_v3) = (Model.biasRow (m ((c : Thread nD τ).loc main_arg5))) := by
  show StableHlo.after hostOps0 (W0 m ρ c) _ = _
  dsimp only [hostOps0]
  after_results
  all_goals rfl

theorem at1_main_arg4 : W1 m ρ c (Proc.devRef .tc main_arg4) = (m ((c : Thread nD τ).loc main_arg4)) := by
  show StableHlo.after hostOps0 (W0 m ρ c) _ = _
  dsimp only [hostOps0]
  after_results
  all_goals rfl

theorem at1_main_arg6 : W1 m ρ c (Proc.devRef .tc main_arg6) = (m ((c : Thread nD τ).loc main_arg6)) := by
  show StableHlo.after hostOps0 (W0 m ρ c) _ = _
  dsimp only [hostOps0]
  after_results
  all_goals rfl

theorem at1_main_arg7 : W1 m ρ c (Proc.devRef .tc main_arg7) = (m ((c : Thread nD τ).loc main_arg7)) := by
  show StableHlo.after hostOps0 (W0 m ρ c) _ = _
  dsimp only [hostOps0]
  after_results
  all_goals rfl

theorem at1_main_arg8 : W1 m ρ c (Proc.devRef .tc main_arg8) = (m ((c : Thread nD τ).loc main_arg8)) := by
  show StableHlo.after hostOps0 (W0 m ρ c) _ = _
  dsimp only [hostOps0]
  after_results
  all_goals rfl

theorem at1_main_arg9 : W1 m ρ c (Proc.devRef .tc main_arg9) = (m ((c : Thread nD τ).loc main_arg9)) := by
  show StableHlo.after hostOps0 (W0 m ρ c) _ = _
  dsimp only [hostOps0]
  after_results
  all_goals rfl

theorem at1_main_arg3 : W1 m ρ c (Proc.devRef .tc main_arg3) = (m ((c : Thread nD τ).loc main_arg3)) := by
  show StableHlo.after hostOps0 (W0 m ρ c) _ = _
  dsimp only [hostOps0]
  after_results
  all_goals rfl

theorem at1_main_arg10 : W1 m ρ c (Proc.devRef .tc main_arg10) = (m ((c : Thread nD τ).loc main_arg10)) := by
  show StableHlo.after hostOps0 (W0 m ρ c) _ = _
  dsimp only [hostOps0]
  after_results
  all_goals rfl

theorem at1_main_arg11 : W1 m ρ c (Proc.devRef .tc main_arg11) = (m ((c : Thread nD τ).loc main_arg11)) := by
  show StableHlo.after hostOps0 (W0 m ρ c) _ = _
  dsimp only [hostOps0]
  after_results
  all_goals rfl

theorem at2_main_v4 : W2 m ρ c (Proc.devRef .tc main_v4) = (lin (Model.rows (m ((c : Thread nD τ).loc main_arg0))) (m ((c : Thread nD τ).loc main_arg4)) (Model.biasRow (m ((c : Thread nD τ).loc main_arg5)))) := by
  refine (W2_arr m ρ c 3).trans ((Lin0.final (V1 m ρ) c).trans ?_)
  show lin (W1 m ρ c (Proc.devRef .tc main_v0)) (W1 m ρ c (Proc.devRef .tc main_arg4)) (W1 m ρ c (Proc.devRef .tc main_v3)) = _
  rw [at1_main_v0 m ρ c, at1_main_arg4 m ρ c, at1_main_v3 m ρ c]
  all_goals rfl

theorem at2_main_v1 : W2 m ρ c (Proc.devRef .tc main_v1) = (Model.rows (m ((c : Thread nD τ).loc main_arg1))) :=
  (W2_of_ne m ρ c main_v1 (by decide)).trans (at1_main_v1 m ρ c)

theorem at2_main_arg6 : W2 m ρ c (Proc.devRef .tc main_arg6) = (m ((c : Thread nD τ).loc main_arg6)) :=
  (W2_of_ne m ρ c main_arg6 (by decide)).trans (at1_main_arg6 m ρ c)

theorem at2_main_arg7 : W2 m ρ c (Proc.devRef .tc main_arg7) = (m ((c : Thread nD τ).loc main_arg7)) :=
  (W2_of_ne m ρ c main_arg7 (by decide)).trans (at1_main_arg7 m ρ c)

theorem at2_main_v2 : W2 m ρ c (Proc.devRef .tc main_v2) = (Model.rows (m ((c : Thread nD τ).loc main_arg2))) :=
  (W2_of_ne m ρ c main_v2 (by decide)).trans (at1_main_v2 m ρ c)

theorem at2_main_arg8 : W2 m ρ c (Proc.devRef .tc main_arg8) = (m ((c : Thread nD τ).loc main_arg8)) :=
  (W2_of_ne m ρ c main_arg8 (by decide)).trans (at1_main_arg8 m ρ c)

theorem at2_main_arg9 : W2 m ρ c (Proc.devRef .tc main_arg9) = (m ((c : Thread nD τ).loc main_arg9)) :=
  (W2_of_ne m ρ c main_arg9 (by decide)).trans (at1_main_arg9 m ρ c)

theorem at2_main_arg3 : W2 m ρ c (Proc.devRef .tc main_arg3) = (m ((c : Thread nD τ).loc main_arg3)) :=
  (W2_of_ne m ρ c main_arg3 (by decide)).trans (at1_main_arg3 m ρ c)

theorem at2_main_arg10 : W2 m ρ c (Proc.devRef .tc main_arg10) = (m ((c : Thread nD τ).loc main_arg10)) :=
  (W2_of_ne m ρ c main_arg10 (by decide)).trans (at1_main_arg10 m ρ c)

theorem at2_main_arg11 : W2 m ρ c (Proc.devRef .tc main_arg11) = (m ((c : Thread nD τ).loc main_arg11)) :=
  (W2_of_ne m ρ c main_arg11 (by decide)).trans (at1_main_arg11 m ρ c)

/-! ## Region 1: the key projection -/

theorem at3_main_v5 : W3 m ρ c (Proc.devRef .tc main_v5) = (Model.unrows (lin (Model.rows (m ((c : Thread nD τ).loc main_arg0))) (m ((c : Thread nD τ).loc main_arg4)) (Model.biasRow (m ((c : Thread nD τ).loc main_arg5))))) := by
  show StableHlo.after hostOps1 (W2 m ρ c) _ = _
  dsimp only [hostOps1]
  after_results
  all_goals (rw [at2_main_v4 m ρ c])
  all_goals rfl

theorem at3_main_v6 : W3 m ρ c (Proc.devRef .tc main_v6) = (Model.biasRow (m ((c : Thread nD τ).loc main_arg7))) := by
  show StableHlo.after hostOps1 (W2 m ρ c) _ = _
  dsimp only [hostOps1]
  after_results
  all_goals (rw [at2_main_arg7 m ρ c])
  all_goals rfl

theorem at3_main_v1 : W3 m ρ c (Proc.devRef .tc main_v1) = (Model.rows (m ((c : Thread nD τ).loc main_arg1))) := by
  show StableHlo.after hostOps1 (W2 m ρ c) _ = _
  dsimp only [hostOps1]
  after_results
  all_goals (first | exact at2_main_v1 m ρ c | rfl)

theorem at3_main_arg6 : W3 m ρ c (Proc.devRef .tc main_arg6) = (m ((c : Thread nD τ).loc main_arg6)) := by
  show StableHlo.after hostOps1 (W2 m ρ c) _ = _
  dsimp only [hostOps1]
  after_results
  all_goals (first | exact at2_main_arg6 m ρ c | rfl)

theorem at3_main_v2 : W3 m ρ c (Proc.devRef .tc main_v2) = (Model.rows (m ((c : Thread nD τ).loc main_arg2))) := by
  show StableHlo.after hostOps1 (W2 m ρ c) _ = _
  dsimp only [hostOps1]
  after_results
  all_goals (first | exact at2_main_v2 m ρ c | rfl)

theorem at3_main_arg8 : W3 m ρ c (Proc.devRef .tc main_arg8) = (m ((c : Thread nD τ).loc main_arg8)) := by
  show StableHlo.after hostOps1 (W2 m ρ c) _ = _
  dsimp only [hostOps1]
  after_results
  all_goals (first | exact at2_main_arg8 m ρ c | rfl)

theorem at3_main_arg9 : W3 m ρ c (Proc.devRef .tc main_arg9) = (m ((c : Thread nD τ).loc main_arg9)) := by
  show StableHlo.after hostOps1 (W2 m ρ c) _ = _
  dsimp only [hostOps1]
  after_results
  all_goals (first | exact at2_main_arg9 m ρ c | rfl)

theorem at3_main_arg3 : W3 m ρ c (Proc.devRef .tc main_arg3) = (m ((c : Thread nD τ).loc main_arg3)) := by
  show StableHlo.after hostOps1 (W2 m ρ c) _ = _
  dsimp only [hostOps1]
  after_results
  all_goals (first | exact at2_main_arg3 m ρ c | rfl)

theorem at3_main_arg10 : W3 m ρ c (Proc.devRef .tc main_arg10) = (m ((c : Thread nD τ).loc main_arg10)) := by
  show StableHlo.after hostOps1 (W2 m ρ c) _ = _
  dsimp only [hostOps1]
  after_results
  all_goals (first | exact at2_main_arg10 m ρ c | rfl)

theorem at3_main_arg11 : W3 m ρ c (Proc.devRef .tc main_arg11) = (m ((c : Thread nD τ).loc main_arg11)) := by
  show StableHlo.after hostOps1 (W2 m ρ c) _ = _
  dsimp only [hostOps1]
  after_results
  all_goals (first | exact at2_main_arg11 m ρ c | rfl)

theorem at4_main_v7 : W4 m ρ c (Proc.devRef .tc main_v7) = (lin (Model.rows (m ((c : Thread nD τ).loc main_arg1))) (m ((c : Thread nD τ).loc main_arg6)) (Model.biasRow (m ((c : Thread nD τ).loc main_arg7)))) := by
  refine (W4_arr m ρ c 3).trans ((Lin1.final (V3 m ρ) c).trans ?_)
  show lin (W3 m ρ c (Proc.devRef .tc main_v1)) (W3 m ρ c (Proc.devRef .tc main_arg6)) (W3 m ρ c (Proc.devRef .tc main_v6)) = _
  rw [at3_main_v1 m ρ c, at3_main_arg6 m ρ c, at3_main_v6 m ρ c]
  all_goals rfl

theorem at4_main_v5 : W4 m ρ c (Proc.devRef .tc main_v5) = (Model.unrows (lin (Model.rows (m ((c : Thread nD τ).loc main_arg0))) (m ((c : Thread nD τ).loc main_arg4)) (Model.biasRow (m ((c : Thread nD τ).loc main_arg5))))) :=
  (W4_of_ne m ρ c main_v5 (by decide)).trans (at3_main_v5 m ρ c)

theorem at4_main_v2 : W4 m ρ c (Proc.devRef .tc main_v2) = (Model.rows (m ((c : Thread nD τ).loc main_arg2))) :=
  (W4_of_ne m ρ c main_v2 (by decide)).trans (at3_main_v2 m ρ c)

theorem at4_main_arg8 : W4 m ρ c (Proc.devRef .tc main_arg8) = (m ((c : Thread nD τ).loc main_arg8)) :=
  (W4_of_ne m ρ c main_arg8 (by decide)).trans (at3_main_arg8 m ρ c)

theorem at4_main_arg9 : W4 m ρ c (Proc.devRef .tc main_arg9) = (m ((c : Thread nD τ).loc main_arg9)) :=
  (W4_of_ne m ρ c main_arg9 (by decide)).trans (at3_main_arg9 m ρ c)

theorem at4_main_arg3 : W4 m ρ c (Proc.devRef .tc main_arg3) = (m ((c : Thread nD τ).loc main_arg3)) :=
  (W4_of_ne m ρ c main_arg3 (by decide)).trans (at3_main_arg3 m ρ c)

theorem at4_main_arg10 : W4 m ρ c (Proc.devRef .tc main_arg10) = (m ((c : Thread nD τ).loc main_arg10)) :=
  (W4_of_ne m ρ c main_arg10 (by decide)).trans (at3_main_arg10 m ρ c)

theorem at4_main_arg11 : W4 m ρ c (Proc.devRef .tc main_arg11) = (m ((c : Thread nD τ).loc main_arg11)) :=
  (W4_of_ne m ρ c main_arg11 (by decide)).trans (at3_main_arg11 m ρ c)

/-! ## Region 2: the value projection -/

theorem at5_main_v8 : W5 m ρ c (Proc.devRef .tc main_v8) = (Model.unrows (lin (Model.rows (m ((c : Thread nD τ).loc main_arg1))) (m ((c : Thread nD τ).loc main_arg6)) (Model.biasRow (m ((c : Thread nD τ).loc main_arg7))))) := by
  show StableHlo.after hostOps2 (W4 m ρ c) _ = _
  dsimp only [hostOps2]
  after_results
  all_goals (rw [at4_main_v7 m ρ c])
  all_goals rfl

theorem at5_main_v9 : W5 m ρ c (Proc.devRef .tc main_v9) = (Model.biasRow (m ((c : Thread nD τ).loc main_arg9))) := by
  show StableHlo.after hostOps2 (W4 m ρ c) _ = _
  dsimp only [hostOps2]
  after_results
  all_goals (rw [at4_main_arg9 m ρ c])
  all_goals rfl

theorem at5_main_v2 : W5 m ρ c (Proc.devRef .tc main_v2) = (Model.rows (m ((c : Thread nD τ).loc main_arg2))) := by
  show StableHlo.after hostOps2 (W4 m ρ c) _ = _
  dsimp only [hostOps2]
  after_results
  all_goals (first | exact at4_main_v2 m ρ c | rfl)

theorem at5_main_arg8 : W5 m ρ c (Proc.devRef .tc main_arg8) = (m ((c : Thread nD τ).loc main_arg8)) := by
  show StableHlo.after hostOps2 (W4 m ρ c) _ = _
  dsimp only [hostOps2]
  after_results
  all_goals (first | exact at4_main_arg8 m ρ c | rfl)

theorem at5_main_v5 : W5 m ρ c (Proc.devRef .tc main_v5) = (Model.unrows (lin (Model.rows (m ((c : Thread nD τ).loc main_arg0))) (m ((c : Thread nD τ).loc main_arg4)) (Model.biasRow (m ((c : Thread nD τ).loc main_arg5))))) := by
  show StableHlo.after hostOps2 (W4 m ρ c) _ = _
  dsimp only [hostOps2]
  after_results
  all_goals (first | exact at4_main_v5 m ρ c | rfl)

theorem at5_main_arg3 : W5 m ρ c (Proc.devRef .tc main_arg3) = (m ((c : Thread nD τ).loc main_arg3)) := by
  show StableHlo.after hostOps2 (W4 m ρ c) _ = _
  dsimp only [hostOps2]
  after_results
  all_goals (first | exact at4_main_arg3 m ρ c | rfl)

theorem at5_main_arg10 : W5 m ρ c (Proc.devRef .tc main_arg10) = (m ((c : Thread nD τ).loc main_arg10)) := by
  show StableHlo.after hostOps2 (W4 m ρ c) _ = _
  dsimp only [hostOps2]
  after_results
  all_goals (first | exact at4_main_arg10 m ρ c | rfl)

theorem at5_main_arg11 : W5 m ρ c (Proc.devRef .tc main_arg11) = (m ((c : Thread nD τ).loc main_arg11)) := by
  show StableHlo.after hostOps2 (W4 m ρ c) _ = _
  dsimp only [hostOps2]
  after_results
  all_goals (first | exact at4_main_arg11 m ρ c | rfl)

theorem at6_main_v10 : W6 m ρ c (Proc.devRef .tc main_v10) = (lin (Model.rows (m ((c : Thread nD τ).loc main_arg2))) (m ((c : Thread nD τ).loc main_arg8)) (Model.biasRow (m ((c : Thread nD τ).loc main_arg9)))) := by
  refine (W6_arr m ρ c 3).trans ((Lin2.final (V5 m ρ) c).trans ?_)
  show lin (W5 m ρ c (Proc.devRef .tc main_v2)) (W5 m ρ c (Proc.devRef .tc main_arg8)) (W5 m ρ c (Proc.devRef .tc main_v9)) = _
  rw [at5_main_v2 m ρ c, at5_main_arg8 m ρ c, at5_main_v9 m ρ c]
  all_goals rfl

theorem at6_main_v5 : W6 m ρ c (Proc.devRef .tc main_v5) = (Model.unrows (lin (Model.rows (m ((c : Thread nD τ).loc main_arg0))) (m ((c : Thread nD τ).loc main_arg4)) (Model.biasRow (m ((c : Thread nD τ).loc main_arg5))))) :=
  (W6_of_ne m ρ c main_v5 (by decide)).trans (at5_main_v5 m ρ c)

theorem at6_main_v8 : W6 m ρ c (Proc.devRef .tc main_v8) = (Model.unrows (lin (Model.rows (m ((c : Thread nD τ).loc main_arg1))) (m ((c : Thread nD τ).loc main_arg6)) (Model.biasRow (m ((c : Thread nD τ).loc main_arg7))))) :=
  (W6_of_ne m ρ c main_v8 (by decide)).trans (at5_main_v8 m ρ c)

theorem at6_main_arg3 : W6 m ρ c (Proc.devRef .tc main_arg3) = (m ((c : Thread nD τ).loc main_arg3)) :=
  (W6_of_ne m ρ c main_arg3 (by decide)).trans (at5_main_arg3 m ρ c)

theorem at6_main_arg10 : W6 m ρ c (Proc.devRef .tc main_arg10) = (m ((c : Thread nD τ).loc main_arg10)) :=
  (W6_of_ne m ρ c main_arg10 (by decide)).trans (at5_main_arg10 m ρ c)

theorem at6_main_arg11 : W6 m ρ c (Proc.devRef .tc main_arg11) = (m ((c : Thread nD τ).loc main_arg11)) :=
  (W6_of_ne m ρ c main_arg11 (by decide)).trans (at5_main_arg11 m ρ c)

/-! ## Region 3: attention over the heads -/

theorem at7_main_v13 : W7 m ρ c (Proc.devRef .tc main_v13) = (Model.heads (Model.proj (m ((c : Thread nD τ).loc main_arg0)) (m ((c : Thread nD τ).loc main_arg4)) (m ((c : Thread nD τ).loc main_arg5)))) := by
  show StableHlo.after hostOps3 (W6 m ρ c) _ = _
  dsimp only [hostOps3]
  after_results
  all_goals (rw [at6_main_v5 m ρ c])
  all_goals rfl

theorem at7_main_v15 : W7 m ρ c (Proc.devRef .tc main_v15) = (Model.heads (Model.proj (m ((c : Thread nD τ).loc main_arg1)) (m ((c : Thread nD τ).loc main_arg6)) (m ((c : Thread nD τ).loc main_arg7)))) := by
  show StableHlo.after hostOps3 (W6 m ρ c) _ = _
  dsimp only [hostOps3]
  after_results
  all_goals (rw [at6_main_v8 m ρ c])
  all_goals rfl

theorem at7_main_v17 : W7 m ρ c (Proc.devRef .tc main_v17) = (Model.heads (Model.proj (m ((c : Thread nD τ).loc main_arg2)) (m ((c : Thread nD τ).loc main_arg8)) (m ((c : Thread nD τ).loc main_arg9)))) := by
  show StableHlo.after hostOps3 (W6 m ρ c) _ = _
  dsimp only [hostOps3]
  after_results
  all_goals (rw [at6_main_v10 m ρ c])
  all_goals rfl

theorem at7_main_arg3 : W7 m ρ c (Proc.devRef .tc main_arg3) = (m ((c : Thread nD τ).loc main_arg3)) := by
  show StableHlo.after hostOps3 (W6 m ρ c) _ = _
  dsimp only [hostOps3]
  after_results
  all_goals (first | exact at6_main_arg3 m ρ c | rfl)

theorem at7_main_arg10 : W7 m ρ c (Proc.devRef .tc main_arg10) = (m ((c : Thread nD τ).loc main_arg10)) := by
  show StableHlo.after hostOps3 (W6 m ρ c) _ = _
  dsimp only [hostOps3]
  after_results
  all_goals (first | exact at6_main_arg10 m ρ c | rfl)

theorem at7_main_arg11 : W7 m ρ c (Proc.devRef .tc main_arg11) = (m ((c : Thread nD τ).loc main_arg11)) := by
  show StableHlo.after hostOps3 (W6 m ρ c) _ = _
  dsimp only [hostOps3]
  after_results
  all_goals (first | exact at6_main_arg11 m ρ c | rfl)

theorem at8_main_v18_0 : W8 m ρ c (Proc.devRef .tc main_v18_0) = (attend (Model.heads (Model.proj (m ((c : Thread nD τ).loc main_arg0)) (m ((c : Thread nD τ).loc main_arg4)) (m ((c : Thread nD τ).loc main_arg5)))) (Model.heads (Model.proj (m ((c : Thread nD τ).loc main_arg1)) (m ((c : Thread nD τ).loc main_arg6)) (m ((c : Thread nD τ).loc main_arg7)))) (Model.heads (Model.proj (m ((c : Thread nD τ).loc main_arg2)) (m ((c : Thread nD τ).loc main_arg8)) (m ((c : Thread nD τ).loc main_arg9)))) (m ((c : Thread nD τ).loc main_arg3))) := by
  refine (W8_arr m ρ c 4).trans ((Attn.final_values (V7 m ρ) c).trans ?_)
  show attend (W7 m ρ c (Proc.devRef .tc main_v13)) (W7 m ρ c (Proc.devRef .tc main_v15)) (W7 m ρ c (Proc.devRef .tc main_v17)) (W7 m ρ c (Proc.devRef .tc main_arg3)) = _
  rw [at7_main_v13 m ρ c, at7_main_v15 m ρ c, at7_main_v17 m ρ c, at7_main_arg3 m ρ c]
  all_goals rfl

theorem at8_main_v18_1 : W8 m ρ c (Proc.devRef .tc main_v18_1) = (Model.weights (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W8_arr m ρ c 5).trans ((Attn.final_weights (V7 m ρ) c).trans ?_)
  show probs (W7 m ρ c (Proc.devRef .tc main_v13)) (W7 m ρ c (Proc.devRef .tc main_v15)) (W7 m ρ c (Proc.devRef .tc main_arg3)) = _
  rw [at7_main_v13 m ρ c, at7_main_v15 m ρ c, at7_main_arg3 m ρ c]
  all_goals rfl

theorem at8_main_arg10 : W8 m ρ c (Proc.devRef .tc main_arg10) = (m ((c : Thread nD τ).loc main_arg10)) :=
  (W8_of_ne m ρ c main_arg10 (by decide)).trans (at7_main_arg10 m ρ c)

theorem at8_main_arg11 : W8 m ρ c (Proc.devRef .tc main_arg11) = (m ((c : Thread nD τ).loc main_arg11)) :=
  (W8_of_ne m ρ c main_arg11 (by decide)).trans (at7_main_arg11 m ρ c)

/-! ## Region 4: the output projection -/

theorem at9_main_v21 : W9 m ρ c (Proc.devRef .tc main_v21) = (Model.rows (Model.merge (attend (Model.heads (Model.proj (m ((c : Thread nD τ).loc main_arg0)) (m ((c : Thread nD τ).loc main_arg4)) (m ((c : Thread nD τ).loc main_arg5)))) (Model.heads (Model.proj (m ((c : Thread nD τ).loc main_arg1)) (m ((c : Thread nD τ).loc main_arg6)) (m ((c : Thread nD τ).loc main_arg7)))) (Model.heads (Model.proj (m ((c : Thread nD τ).loc main_arg2)) (m ((c : Thread nD τ).loc main_arg8)) (m ((c : Thread nD τ).loc main_arg9)))) (m ((c : Thread nD τ).loc main_arg3))))) := by
  show StableHlo.after hostOps4 (W8 m ρ c) _ = _
  dsimp only [hostOps4]
  after_results
  all_goals (rw [at8_main_v18_0 m ρ c])
  all_goals rfl

theorem at9_main_v22 : W9 m ρ c (Proc.devRef .tc main_v22) = (Model.biasRow (m ((c : Thread nD τ).loc main_arg11))) := by
  show StableHlo.after hostOps4 (W8 m ρ c) _ = _
  dsimp only [hostOps4]
  after_results
  all_goals (rw [at8_main_arg11 m ρ c])
  all_goals rfl

theorem at9_main_arg10 : W9 m ρ c (Proc.devRef .tc main_arg10) = (m ((c : Thread nD τ).loc main_arg10)) := by
  show StableHlo.after hostOps4 (W8 m ρ c) _ = _
  dsimp only [hostOps4]
  after_results
  all_goals (first | exact at8_main_arg10 m ρ c | rfl)

theorem at9_main_v18_1 : W9 m ρ c (Proc.devRef .tc main_v18_1) = (Model.weights (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps4 (W8 m ρ c) _ = _
  dsimp only [hostOps4]
  after_results
  all_goals (first | exact at8_main_v18_1 m ρ c | rfl)

theorem at10_main_v23 : W10 m ρ c (Proc.devRef .tc main_v23) = (lin (Model.rows (Model.merge (attend (Model.heads (Model.proj (m ((c : Thread nD τ).loc main_arg0)) (m ((c : Thread nD τ).loc main_arg4)) (m ((c : Thread nD τ).loc main_arg5)))) (Model.heads (Model.proj (m ((c : Thread nD τ).loc main_arg1)) (m ((c : Thread nD τ).loc main_arg6)) (m ((c : Thread nD τ).loc main_arg7)))) (Model.heads (Model.proj (m ((c : Thread nD τ).loc main_arg2)) (m ((c : Thread nD τ).loc main_arg8)) (m ((c : Thread nD τ).loc main_arg9)))) (m ((c : Thread nD τ).loc main_arg3))))) (m ((c : Thread nD τ).loc main_arg10)) (Model.biasRow (m ((c : Thread nD τ).loc main_arg11)))) := by
  refine (W10_arr m ρ c 3).trans ((Lin4.final (V9 m ρ) c).trans ?_)
  show lin (W9 m ρ c (Proc.devRef .tc main_v21)) (W9 m ρ c (Proc.devRef .tc main_arg10)) (W9 m ρ c (Proc.devRef .tc main_v22)) = _
  rw [at9_main_v21 m ρ c, at9_main_arg10 m ρ c, at9_main_v22 m ρ c]
  all_goals rfl

theorem at10_main_v18_1 : W10 m ρ c (Proc.devRef .tc main_v18_1) = (Model.weights (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (W10_of_ne m ρ c main_v18_1 (by decide)).trans (at9_main_v18_1 m ρ c)

/-! ## The two results -/

/-- The first result: the output projection reshaped to [2, 2048, 1024] — the model's output. -/
theorem result0 : W11 m ρ c (Proc.devRef .tc main_v24) = (Model.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show StableHlo.after hostOps5 (W10 m ρ c) _ = _
  dsimp only [hostOps5]
  after_results
  all_goals (rw [at10_main_v23 m ρ c])
  all_goals rfl
/-- The second result: the attention weights. -/
theorem result1 : W11 m ρ c (Proc.devRef .tc main_v18_1) = (Model.weights (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps5 (W10 m ρ c) _ = _
  dsimp only [hostOps5]
  after_results
  all_goals (first | exact at10_main_v18_1 m ρ c | rfl)

end Cert.Mha.Chain

end
-- ==== Proof.RefValue.lean ====
/-
  The reference program's values are the specification's.

  The reference projects each of its three row inputs by a weight matrix (rows are output features) plus a bias,
  splits the 1024 features into 16 heads of 64, scores queries against keys, masks, normalises each row by its
  maximum and its sum of exponentials, and contracts the weights with the values. Read entry by entry, every stage
  is the corresponding function of the specification.
-/
import proofs.«158408_j34445637714311_2_alg».proof.Proof.Spec
import proofs.«158408_j34445637714311_2_alg».proof.Proof.Gen.ReferenceIdeal.Read

noncomputable section

namespace Cert.Mha.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A projection entry: the row (b, s) of the input against the row e of the weights, plus the bias at e. -/
theorem proj_apply (x0 : (⟨S2x2048x1024, .f32⟩ : BufTy).Contents (Elt Ideal))
    (x4 : (⟨S1024x1024, .f32⟩ : BufTy).Contents (Elt Ideal)) (x5 : (⟨S1024, .f32⟩ : BufTy).Contents (Elt Ideal))
    (b : Fin 2) (s : Fin 2048) (e : Fin 1024) :
    val_main_v3 (F := Ideal) x0 x4 x5 (ix3 b s e)
      = (∑ d : Fin 1024, x0 (ix3 b s d) * x4 (ix2 e d)) + x5 (ix1 e) := by
  rw [val_main_v3_apply, val_main_v0_apply, val_main_v2_apply, val_main_v1_apply, Ideal.addf_def]
  have hl : ∀ k : Fin 1024, lidx_main_v0 (ix3 b s e) k = ix3 b s k := fun k => funext fun a =>
    match a with
    | ⟨0, _⟩ => rfl
    | ⟨1, _⟩ => rfl
    | ⟨2, _⟩ => rfl
  have hr : ∀ k : Fin 1024, ridx_main_v0 (ix3 b s e) k = ix2 e k := fun k => funext fun a =>
    match a with
    | ⟨0, _⟩ => rfl
    | ⟨1, _⟩ => rfl
  have hb : idx_main_v1 (idx_main_v2 (ix3 b s e)) = ix1 e := funext fun a =>
    match a with
    | ⟨0, _⟩ => rfl
  rw [hb]
  congr 1
  exact Finset.sum_congr rfl fun k _ => by rw [hl, hr]

variable (x0 x1 x2 : (⟨S2x2048x1024, .f32⟩ : BufTy).Contents (Elt Ideal))
  (x3 : (⟨S2x2048x2048, .i32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-! ## The literals -/

/-- The word 0x41000000 denotes 8. -/
theorem eight_val : Ideal.ofBits .f32 0x41000000#32 = ((8 : ℝ) : EReal) := by
  simp [Ideal.ofBits, Ideal.ieee]
  rw [← EReal.coe_mul]
  exact congrArg _ (by norm_num)

/-- The word 0x3E000000 denotes ⅛. -/
theorem eighth_val : eighth = ((1 / 8 : ℝ) : EReal) := by
  unfold eighth
  simp [Ideal.ofBits, Ideal.ieee]
  rw [← EReal.coe_mul]
  exact congrArg _ (by norm_num)

/-- The word 0xFF800000 denotes −∞. -/
theorem negInf_val : Ideal.ofBits .f32 0xFF800000#32 = (⊥ : EReal) := by
  simp [Ideal.ofBits, Ideal.ieee]

/-- Dividing by the literal 8 is multiplying by the literal ⅛, at the infinities too. -/
theorem div_eight (x : EReal) : Ideal.div x (Ideal.ofBits .f32 0x41000000#32) = x * eighth := by
  rw [eight_val, Ideal.div_coe (by norm_num), eighth_val]

/-! ## The scores -/

/-- The reference's masked, scaled score is the specification's: the mask read through its two broadcasts is the mask
    at (b, q, k), and the dot product over 8 is the dot product times ⅛. -/
theorem score_apply (b : Fin 2) (h : Fin 16) (q k : Fin 2048) :
    val_main_v24 (F := Ideal) x0 x1 x3 x4 x5 x6 x7 (ix4 b h q k)
      = score (val_main_v5 (F := Ideal) x0 x4 x5) (val_main_v11 (F := Ideal) x1 x6 x7) x3 b h q k := by
  rw [val_main_v24_apply, val_main_call0_v1_apply, val_main_v23_apply, val_main_v21_apply, val_main_v22_apply,
    val_main_c_apply, val_main_call0_v2_apply, val_main_call0_v0_apply, val_main_cst_0_apply, val_main_v20_apply,
    val_main_v18_apply, val_main_v19_apply, val_main_cst_apply, Ideal.hostDivf_def, Ideal.ofBits_def, Ideal.ofBits_def,
    div_eight]
  have hm : idx_main_v21 (idx_main_call0_v1 (ix4 b h q k)) = ix3 b q k := funext fun a =>
    match a with
    | ⟨0, _⟩ => rfl
    | ⟨1, _⟩ => rfl
    | ⟨2, _⟩ => rfl
  have hl : ∀ d : Fin 64, lidx_main_v18 (ix4 b h q k) d = ix4 b h q d := fun d => funext fun a =>
    match a with
    | ⟨0, _⟩ => rfl
    | ⟨1, _⟩ => rfl
    | ⟨2, _⟩ => rfl
    | ⟨3, _⟩ => rfl
  have hr : ∀ d : Fin 64, ridx_main_v18 (ix4 b h q k) d = ix4 b h k d := fun d => funext fun a =>
    match a with
    | ⟨0, _⟩ => rfl
    | ⟨1, _⟩ => rfl
    | ⟨2, _⟩ => rfl
    | ⟨3, _⟩ => rfl
  have hs : (∑ d : Fin 64, val_main_v5 (F := Ideal) x0 x4 x5 (lidx_main_v18 (ix4 b h q k) d)
        * val_main_v11 (F := Ideal) x1 x6 x7 (ridx_main_v18 (ix4 b h q k) d))
      = ∑ d : Fin 64, val_main_v5 (F := Ideal) x0 x4 x5 (ix4 b h q d) * val_main_v11 (F := Ideal) x1 x6 x7 (ix4 b h k d) :=
    Finset.sum_congr rfl fun d _ => by rw [hl, hr]
  rw [hm, hs]
  rfl

/-! ## The row maximum -/

/-- The reference's row maximum — the maximum of −∞ and the fold of max from −∞ along the keys — is the
    specification's fold. -/
theorem rowMax_apply (b : Fin 2) (h : Fin 16) (q : Fin 2048) :
    val_main_v27 (F := Ideal) x0 x1 x3 x4 x5 x6 x7 (ix3 b h q)
      = rowMax (val_main_v5 (F := Ideal) x0 x4 x5) (val_main_v11 (F := Ideal) x1 x6 x7) x3 b h q := by
  have hR : S2x16x2048x2048.Reduces [3] S2x16x2048 := by decide
  rw [val_main_v27_apply, val_main_v26_apply, val_main_cst_2_apply, Ideal.maximumf_def, Ideal.ofBits_def]
  unfold val_main_v25
  rw [Host.reduce_eq_fold_single (FloatOps.maximumf (F := Ideal) (φ := .f32)) _ _
    reducesTo_S2x16x2048x2048_S2x16x2048_d3 hR h_S_, val_main_cst_1_apply, Ideal.ofBits_def]
  refine (max_eq_right (by rw [negInf_val]; exact bot_le)).trans ?_
  have hlift : ∀ k : Fin 2048, hR.lift (ix3 b h q) k = ix4 b h q k := fun k => funext fun a => Fin.ext (by
    match a with
    | ⟨0, _⟩ => rfl
    | ⟨1, _⟩ => rfl
    | ⟨2, _⟩ => rfl
    | ⟨3, _⟩ => rfl)
  have hf : (val_main_v24 (F := Ideal) x0 x1 x3 x4 x5 x6 x7 ∘ hR.lift (ix3 b h q))
      = fun k : Fin 2048 => score (val_main_v5 (F := Ideal) x0 x4 x5) (val_main_v11 (F := Ideal) x1 x6 x7) x3 b h q k :=
    funext fun (k : Fin 2048) =>
      (congrArg (val_main_v24 (F := Ideal) x0 x1 x3 x4 x5 x6 x7) (hlift k)).trans
        (score_apply x0 x1 x3 x4 x5 x6 x7 b h q k)
  exact congrArg (fun f => Finset.fold max (Ideal.ofBits .f32 0xFF800000#32) f (Finset.univ : Finset (Fin 2048))) hf

/-! ## The exponentials, their sum, and the weights -/

theorem expo_apply (b : Fin 2) (h : Fin 16) (q k : Fin 2048) :
    val_main_v31 (F := Ideal) x0 x1 x3 x4 x5 x6 x7 (ix4 b h q k)
      = expo (val_main_v5 (F := Ideal) x0 x4 x5) (val_main_v11 (F := Ideal) x1 x6 x7) x3 b h q k := by
  rw [val_main_v31_apply, val_main_v30_apply, val_main_v29_apply, val_main_v28_apply, Ideal.hostUnary_exp_def,
    Ideal.subf_def, score_apply]
  have hi : idx_main_v28 (idx_main_v29 (ix4 b h q k)) = ix3 b h q := funext fun a =>
    match a with
    | ⟨0, _⟩ => rfl
    | ⟨1, _⟩ => rfl
    | ⟨2, _⟩ => rfl
  rw [hi, rowMax_apply]
  rfl

/-- The reference's sum starts from the word 0x00000000, which is 0. -/
theorem denom_apply (b : Fin 2) (h : Fin 16) (q : Fin 2048) :
    val_main_v32 (F := Ideal) x0 x1 x3 x4 x5 x6 x7 (ix3 b h q)
      = denom (val_main_v5 (F := Ideal) x0 x4 x5) (val_main_v11 (F := Ideal) x1 x6 x7) x3 b h q := by
  rw [val_main_v32_apply, val_main_cst_3_apply, Ideal.ofBits_def, Ideal.ofBits_zero_f32, zero_add]
  unfold denom
  refine Finset.sum_congr rfl fun k _ => ?_
  have hi : idx_main_v32 (ix3 b h q) k = ix4 b h q k := funext fun a =>
    match a with
    | ⟨0, _⟩ => rfl
    | ⟨1, _⟩ => rfl
    | ⟨2, _⟩ => rfl
    | ⟨3, _⟩ => rfl
  rw [hi, expo_apply]

theorem prob_apply (b : Fin 2) (h : Fin 16) (q k : Fin 2048) :
    val_main_v35 (F := Ideal) x0 x1 x3 x4 x5 x6 x7 (ix4 b h q k)
      = prob (val_main_v5 (F := Ideal) x0 x4 x5) (val_main_v11 (F := Ideal) x1 x6 x7) x3 b h q k := by
  rw [val_main_v35_apply, val_main_v34_apply, val_main_v33_apply, Ideal.hostDivf_def, expo_apply]
  have hi : idx_main_v33 (idx_main_v34 (ix4 b h q k)) = ix3 b h q := funext fun a =>
    match a with
    | ⟨0, _⟩ => rfl
    | ⟨1, _⟩ => rfl
    | ⟨2, _⟩ => rfl
  rw [hi, denom_apply]
  rfl

/-- The reference's attention weights are the specification's, as arrays. -/
theorem probs_eq :
    val_main_v35 (F := Ideal) x0 x1 x3 x4 x5 x6 x7
      = probs (val_main_v5 (F := Ideal) x0 x4 x5) (val_main_v11 (F := Ideal) x1 x6 x7) x3 := by
  funext i
  obtain ⟨b, h, q, k, rfl⟩ : ∃ (b : Fin 2) (h : Fin 16) (q k : Fin 2048), i = ix4 b h q k :=
    ⟨i 0, i 1, i 2, i 3, eq_ix4 i⟩
  rw [probs_ix4, prob_apply]

/-! ## The attended values -/

/-- The reference's attended values are the specification's, as arrays. -/
theorem attend_eq :
    val_main_v36 (F := Ideal) x0 x1 x2 x3 x4 x5 x6 x7 x8 x9
      = attend (val_main_v5 (F := Ideal) x0 x4 x5) (val_main_v11 (F := Ideal) x1 x6 x7)
          (val_main_v17 (F := Ideal) x2 x8 x9) x3 := by
  funext i
  obtain ⟨b, h, q, d, rfl⟩ : ∃ (b : Fin 2) (h : Fin 16) (q : Fin 2048) (d : Fin 64), i = ix4 b h q d :=
    ⟨i 0, i 1, i 2, i 3, eq_ix4 i⟩
  rw [attend_ix4, val_main_v36_apply]
  unfold attendAt
  refine Finset.sum_congr rfl fun k _ => ?_
  have hl : lidx_main_v36 (ix4 b h q d) k = ix4 b h q k := funext fun a =>
    match a with
    | ⟨0, _⟩ => rfl
    | ⟨1, _⟩ => rfl
    | ⟨2, _⟩ => rfl
    | ⟨3, _⟩ => rfl
  have hr : ridx_main_v36 (ix4 b h q d) k = ix4 b h k d := funext fun a =>
    match a with
    | ⟨0, _⟩ => rfl
    | ⟨1, _⟩ => rfl
    | ⟨2, _⟩ => rfl
    | ⟨3, _⟩ => rfl
  rw [hl, hr, prob_apply]

end Cert.Mha.Ref

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.ProjRows.lean ====
/-
  A projection is the linear layer on the flattened rows.

  The reference projects a [2, 2048, 1024] array by a weight matrix (rows are output features) plus a bias. Flatten the
  two leading axes: row b·2048 + s of the [4096, 1024] array is the row (b, s). The linear layer on those 4096 rows,
  with the bias as a [1, 1024] row, reshaped back to [2, 2048, 1024], has the same entry at (b, s, e):
  Σ_d X(b, s, d)·W(e, d) + B(e).
-/
import proofs.«158408_j34445637714311_2_alg».proof.Proof.Spec
import proofs.«158408_j34445637714311_2_alg».proof.Proof.Gen.ReferenceIdeal.Read
import proofs.«158408_j34445637714311_2_alg».proof.Proof.LibFlattenBroadcast
import Idealize.ShloMosaic.Lib.ValueLayout

noncomputable section

namespace Cert.Mha.ProjRows

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A projection entry: the row (b, s) of the input against the row e of the weights, plus the bias at e. -/
private theorem proj_entry (x0 : (⟨S2x2048x1024, .f32⟩ : BufTy).Contents (Elt Ideal))
    (x4 : (⟨S1024x1024, .f32⟩ : BufTy).Contents (Elt Ideal)) (x5 : (⟨S1024, .f32⟩ : BufTy).Contents (Elt Ideal))
    (b : Fin 2) (s : Fin 2048) (e : Fin 1024) :
    val_main_v3 (F := Ideal) x0 x4 x5 (ix3 b s e)
      = (∑ d : Fin 1024, x0 (ix3 b s d) * x4 (ix2 e d)) + x5 (ix1 e) := by
  rw [val_main_v3_apply, val_main_v0_apply, val_main_v2_apply, val_main_v1_apply, Ideal.addf_def]
  have hl : ∀ k : Fin 1024, lidx_main_v0 (ix3 b s e) k = ix3 b s k := fun k => funext fun a =>
    match a with
    | ⟨0, _⟩ => rfl
    | ⟨1, _⟩ => rfl
    | ⟨2, _⟩ => rfl
  have hr : ∀ k : Fin 1024, ridx_main_v0 (ix3 b s e) k = ix2 e k := fun k => funext fun a =>
    match a with
    | ⟨0, _⟩ => rfl
    | ⟨1, _⟩ => rfl
  have hb : idx_main_v1 (idx_main_v2 (ix3 b s e)) = ix1 e := funext fun a =>
    match a with
    | ⟨0, _⟩ => rfl
  rw [hb]
  congr 1
  exact Finset.sum_congr rfl fun k _ => by rw [hl, hr]

/-- The projection, as an array, is the linear layer on the 4096 flattened rows, reshaped back. The three reshapes'
    side conditions are hypotheses, so the statement serves any spelling of them. -/
theorem proj_eq (x0 : (⟨3, ![2, 2048, 1024]⟩ : Shape).Idx → EReal) (x4 : (⟨2, ![1024, 1024]⟩ : Shape).Idx → EReal)
    (x5 : (⟨1, ![1024]⟩ : Shape).Idx → EReal)
    (h1 : (⟨3, ![2, 2048, 1024]⟩ : Shape).ShapeCasts ⟨2, ![4096, 1024]⟩)
    (h2 : (⟨1, ![1024]⟩ : Shape).ShapeCasts ⟨2, ![1, 1024]⟩)
    (h3 : (⟨2, ![4096, 1024]⟩ : Shape).ShapeCasts ⟨3, ![2, 2048, 1024]⟩) :
    Cert.ReferenceIdeal.Read.val_main_v3 (F := Ideal) x0 x4 x5
      = shapeCast ⟨3, ![2, 2048, 1024]⟩
          (Cert.Mha.lin (shapeCast ⟨2, ![4096, 1024]⟩ x0 h1) x4 (shapeCast ⟨2, ![1, 1024]⟩ x5 h2)) h3 := by
  funext i
  obtain ⟨b, s, e, rfl⟩ : ∃ (b : Fin 2) (s : Fin 2048) (e : Fin 1024), i = ix3 b s e := ⟨i 0, i 1, i 2, eq_ix3 i⟩
  have hr : b.val * 2048 + s.val < 4096 := by have := b.isLt; have := s.isLt; omega
  refine (proj_entry x0 x4 x5 b s e).trans (Eq.symm ?_)
  refine (Cert.LibFlattenBroadcast.shapeCast_nc_abc_apply _ h3 b s e ⟨b.val * 2048 + s.val, hr⟩ rfl).trans ?_
  rw [lin_ix2]
  unfold linAt
  rw [shapeCast_a_1a_apply x5 h2 0 e]
  refine congrArg (· + x5 (ix1 e)) (Finset.sum_congr rfl fun d _ => ?_)
  rw [Cert.LibFlattenBroadcast.shapeCast_abc_nc_apply x0 h1 b s d ⟨b.val * 2048 + s.val, hr⟩ rfl]

end Cert.Mha.ProjRows

end
-- ==== Proof.Bridge.lean ====
/-
  The reference program's stages are the model's.

  The model states multi-head attention in the layouts the kernel uses: rows flattened for the projections, heads split
  off and moved before positions, the attention weights and attended values of the specification, heads merged back and
  a last projection. The reference computes the same function stage by stage: its projections are the linear layer on
  the flattened rows, its reshapes and transposes are the model's, and its weights and attended values are the
  specification's.
-/
import proofs.«158408_j34445637714311_2_alg».proof.Proof.Model
import proofs.«158408_j34445637714311_2_alg».proof.Proof.RefValue
import proofs.«158408_j34445637714311_2_alg».proof.Proof.ProjRows

noncomputable section

namespace Cert.Mha.Bridge

open Cert.ReferenceIdeal.Read Idealize.ShloMosaic Idealize.SL.Sem Cert.Mha

variable (x0 x1 x2 : (⟨Cert.ReferenceIdeal.S2x2048x1024, .f32⟩ : BufTy).Contents (Elt Ideal))
  (x3 : (⟨Cert.ReferenceIdeal.S2x2048x2048, .i32⟩ : BufTy).Contents (Elt Ideal))
  (x4 : (⟨Cert.ReferenceIdeal.S1024x1024, .f32⟩ : BufTy).Contents (Elt Ideal))
  (x5 : (⟨Cert.ReferenceIdeal.S1024, .f32⟩ : BufTy).Contents (Elt Ideal))
  (x6 : (⟨Cert.ReferenceIdeal.S1024x1024, .f32⟩ : BufTy).Contents (Elt Ideal))
  (x7 : (⟨Cert.ReferenceIdeal.S1024, .f32⟩ : BufTy).Contents (Elt Ideal))
  (x8 : (⟨Cert.ReferenceIdeal.S1024x1024, .f32⟩ : BufTy).Contents (Elt Ideal))
  (x9 : (⟨Cert.ReferenceIdeal.S1024, .f32⟩ : BufTy).Contents (Elt Ideal))
  (x10 : (⟨Cert.ReferenceIdeal.S1024x1024, .f32⟩ : BufTy).Contents (Elt Ideal))
  (x11 : (⟨Cert.ReferenceIdeal.S1024, .f32⟩ : BufTy).Contents (Elt Ideal))

/-! ## The projections -/

/-- The reference's projection (a contraction with the weights' rows plus the broadcast bias) is the linear layer on
    the flattened rows, reshaped back. -/
theorem proj_model : val_main_v3 (F := Ideal) x0 x4 x5 = Model.proj x0 x4 x5 :=
  ProjRows.proj_eq x0 x4 x5 _ _ _

/-! ## The heads -/

/-- The reference splits a projection into heads by the same reshape and transpose. -/
theorem heads_of_proj : val_main_v5 (F := Ideal) x0 x4 x5 = Model.heads (val_main_v3 (F := Ideal) x0 x4 x5) := rfl

/-- The query heads. -/
theorem heads_q : val_main_v5 (F := Ideal) x0 x4 x5 = Model.heads (Model.proj x0 x4 x5) :=
  (heads_of_proj x0 x4 x5).trans (congrArg Model.heads (proj_model x0 x4 x5))

/-- The key heads: the same function of the key input, its weights and its bias. -/
theorem heads_k : val_main_v11 (F := Ideal) x1 x6 x7 = Model.heads (Model.proj x1 x6 x7) :=
  (show val_main_v11 (F := Ideal) x1 x6 x7 = val_main_v5 (F := Ideal) x1 x6 x7 from rfl).trans (heads_q x1 x6 x7)

/-- The value heads: the same function of the value input, its weights and its bias. -/
theorem heads_v : val_main_v17 (F := Ideal) x2 x8 x9 = Model.heads (Model.proj x2 x8 x9) :=
  (show val_main_v17 (F := Ideal) x2 x8 x9 = val_main_v5 (F := Ideal) x2 x8 x9 from rfl).trans (heads_q x2 x8 x9)

/-! ## The weights and the output -/

/-- The reference's attention weights are the model's. -/
theorem weights_model :
    val_main_v35 (F := Ideal) x0 x1 x3 x4 x5 x6 x7 = Model.weights x0 x1 x3 x4 x5 x6 x7 :=
  (Ref.probs_eq x0 x1 x3 x4 x5 x6 x7).trans
    (congrArg₂ (fun Q K => probs Q K x3) (heads_q x0 x4 x5) (heads_k x1 x6 x7))

/-- The reference's output — the attended values transposed back, merged, and projected once more — is the
    model's. -/
theorem output_model :
    val_main_v42 (F := Ideal) x0 x1 x2 x3 x4 x5 x6 x7 x8 x9 x10 x11
      = Model.output x0 x1 x2 x3 x4 x5 x6 x7 x8 x9 x10 x11 := by
  have h42 : val_main_v42 (F := Ideal) x0 x1 x2 x3 x4 x5 x6 x7 x8 x9 x10 x11
      = val_main_v3 (F := Ideal) (val_main_v38 (F := Ideal) x0 x1 x2 x3 x4 x5 x6 x7 x8 x9) x10 x11 := rfl
  have h38 : val_main_v38 (F := Ideal) x0 x1 x2 x3 x4 x5 x6 x7 x8 x9
      = Model.merge (val_main_v36 (F := Ideal) x0 x1 x2 x3 x4 x5 x6 x7 x8 x9) := rfl
  have h36 : val_main_v36 (F := Ideal) x0 x1 x2 x3 x4 x5 x6 x7 x8 x9
      = attend (Model.heads (Model.proj x0 x4 x5)) (Model.heads (Model.proj x1 x6 x7))
          (Model.heads (Model.proj x2 x8 x9)) x3 :=
    (Ref.attend_eq x0 x1 x2 x3 x4 x5 x6 x7 x8 x9).trans
      (by rw [heads_q x0 x4 x5, heads_k x1 x6 x7, heads_v x2 x8 x9])
  exact h42.trans ((proj_model _ x10 x11).trans
    (congrArg (fun o => Model.proj o x10 x11) (h38.trans (congrArg Model.merge h36))))

end Cert.Mha.Bridge

end
-- ==== Proof.lean ====
/-
  Multi-head attention: the Pallas kernel against its jnp reference, on the extended reals.

  The kernel projects queries, keys and values with three pipelined linear layers (X·Wᵀ + B on 4096 flattened rows),
  splits the projections into 16 heads, runs one attention region over (batch, query tile, head) that stores the
  softmax weights of the masked, scaled scores and their product with the values, merges the heads and projects once
  more. The reference computes the same projections as one contraction each, the scores as a batched contraction
  divided by 8 where the kernel multiplies by 0.125, the same masked softmax, and the same two products.

  Both programs compute one function of the twelve arguments (Proof/Model.lean over Proof/Spec.lean): every step is
  the same exact operation on the extended reals, summed over the same index sets, so no finiteness of the inputs is
  used. What each kernel region leaves in its output array is read off the region's blocks (Proof/LinRegion*.lean,
  Proof/AttnBody.lean, Proof/AttnRegion.lean); the buffers are followed through @main (Proof/KernelChain.lean) from the
  run with its results named (Proof/KernelRun.lean); the reference's results are read one operation at a time
  (Proof/RefValue.lean, Proof/ProjRows.lean, Proof/Bridge.lean).
-/
import proofs.«158408_j34445637714311_2_alg».proof.Defs
import proofs.«158408_j34445637714311_2_alg».proof.Proof.Gen.Kernel
import proofs.«158408_j34445637714311_2_alg».proof.Proof.Gen.Kernel.Skeleton
import proofs.«158408_j34445637714311_2_alg».proof.Proof.Gen.Kernel.Launch
import proofs.«158408_j34445637714311_2_alg».proof.Proof.Gen.Kernel.Points
import proofs.«158408_j34445637714311_2_alg».proof.Proof.Gen.Kernel.Frame
import proofs.«158408_j34445637714311_2_alg».proof.Proof.Gen.KernelIdeal
import proofs.«158408_j34445637714311_2_alg».proof.Proof.Gen.KernelIdeal.Skeleton
import proofs.«158408_j34445637714311_2_alg».proof.Proof.Gen.KernelIdeal.Launch
import proofs.«158408_j34445637714311_2_alg».proof.Proof.Gen.KernelIdeal.Points
import proofs.«158408_j34445637714311_2_alg».proof.Proof.Gen.KernelIdeal.Frame
import proofs.«158408_j34445637714311_2_alg».proof.Proof.Gen.ReferenceIdeal
import proofs.«158408_j34445637714311_2_alg».proof.Proof.Gen.ReferenceIdeal.Run
import proofs.«158408_j34445637714311_2_alg».proof.Proof.Gen.ReferenceIdeal.Read
import proofs.«158408_j34445637714311_2_alg».proof.Proof.Gen.Pre_finite_inputs
import proofs.«158408_j34445637714311_2_alg».proof.Proof.KernelRun
import proofs.«158408_j34445637714311_2_alg».proof.Proof.KernelChain
import proofs.«158408_j34445637714311_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments as launched: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the twelve arguments both programs end with the model's output and the model's attention
    weights of those arguments. -/
theorem algebraic : Cert.algebraic_KernelIdeal_ReferenceIdeal := by
  intro m ρ m' ρ' _ hagree
  refine ⟨fun c => Cert.KernelIdeal.Gen.W11 m ρ c (Proc.devRef .tc Cert.KernelIdeal.main_v24),
    fun c => Cert.KernelIdeal.Gen.W11 m ρ c (Proc.devRef .tc Cert.KernelIdeal.main_v18_1),
    Cert.KernelIdeal.Gen.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [Cert.ReferenceIdeal.Read.val_main_v42_eq, Cert.Mha.Bridge.output_model, e0, e1, e2, e3, e4, e5, e6, e7, e8, e9, e10, e11]
    exact (Cert.Mha.Chain.result0 m ρ c).symm
  · obtain ⟨e0, e1, e2, e3, e4, e5, e6, e7, e8, e9, e10, e11⟩ := hagree c
    rw [Cert.ReferenceIdeal.Read.val_main_v35_eq, Cert.Mha.Bridge.weights_model, e0, e1, e3, e4, e5, e6, e7]
    exact (Cert.Mha.Chain.result1 m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
